-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x128 .f32) (main_arg3 : FVec F S128 .f32) (main_arg4 : FVec F S128x64 .f32) (main_arg5 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S200x10000 : Shape := ⟨2, ![200, 10000]⟩
abbrev S10000x128 : Shape := ⟨2, ![10000, 128]⟩
abbrev S10000x64 : Shape := ⟨2, ![10000, 64]⟩
abbrev S200x128 : Shape := ⟨2, ![200, 128]⟩
abbrev S200x64 : Shape := ⟨2, ![200, 64]⟩
abbrev S200 : Shape := ⟨1, ![200]⟩
abbrev S200x1 : Shape := ⟨2, ![200, 1]⟩

abbrev nBuf : Space → Nat
  | .hbm => 9
  | .vmem => 12
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x10000, .f32⟩
  | .local _ .vmem, ⟨0, _⟩ => ⟨S10000x256, .f32⟩
  | .local _ .vmem, ⟨1, _⟩ => ⟨S200x10000, .f32⟩
  | .local _ .vmem, ⟨2, _⟩ => ⟨S200x10000, .f32⟩
  | .local _ .vmem, ⟨3, _⟩ => ⟨S256x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S200x10000, .f32⟩
  | .local _ .vmem, ⟨8, _⟩ => ⟨S200x10000, .f32⟩
  | .local _ .vmem, ⟨9, _⟩ => ⟨S10000x128, .f32⟩
  | .local _ .vmem, ⟨10, _⟩ => ⟨S10000x64, .f32⟩
  | .local _ .vmem, ⟨11, _⟩ => ⟨S10000x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![151], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c51_i32 : BitVec 32 := 51#32
  let v4 : BitVec 1 := Scalar.cmpi .slt arg0 c51_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c1_i32_6 : BitVec 32 := 1#32
  let v16 : BitVec 32 := Scalar.subi arg0 c1_i32_6
  let c200_i32 : BitVec 32 := 200#32
  let v28 : BitVec 32 := Scalar.muli v16 c200_i32
  let v29 : Index := Scalar.indexCast v28
  let c0_16 : Index := 0#32
  ![v29.toNat, 0]
def k0_cond3 (i : grid0.Coords) : BitVec 1 :=
  let arg0 : BitVec 32 := BitVec.ofNat 32 (i 0).val
  let c51_i32_2 : BitVec 32 := 51#32
  let v8 : BitVec 1 := Scalar.cmpi .sge arg0 c51_i32_2
  let c101_i32 : BitVec 32 := 101#32
  let v9 : BitVec 1 := Scalar.cmpi .slt arg0 c101_i32
  let v10 : BitVec 1 := Scalar.andi v8 v9
  let v11 : BitVec 32 := Scalar.extui v10
  let c0_i32_3 : BitVec 32 := 0#32
  let v12 : BitVec 1 := Scalar.cmpi .ne v11 c0_i32_3
  v12

def k0_off2 (i : grid0.Coords) : Fin 2 → Nat :=
  let arg0 : BitVec 32 := BitVec.ofNat 32 (i 0).val
  let c51_i32_6 : BitVec 32 := 51#32
  let v16 : BitVec 32 := Scalar.subi arg0 c51_i32_6
  let c200_i32 : BitVec 32 := 200#32
  let v32 : BitVec 32 := Scalar.muli v16 c200_i32
  let v33 : Index := Scalar.indexCast v32
  let c0_14 : Index := 0#32
  ![v33.toNat, 0]
def k0_cond4 (i : grid0.Coords) : BitVec 1 :=
  let arg0 : BitVec 32 := BitVec.ofNat 32 (i 0).val
  let c101_i32_4 : BitVec 32 := 101#32
  let v13 : BitVec 1 := Scalar.cmpi .sge arg0 c101_i32_4
  let v14 : BitVec 32 := Scalar.extui v13
  let c0_i32_5 : BitVec 32 := 0#32
  let v15 : BitVec 1 := Scalar.cmpi .ne v14 c0_i32_5
  v15

def k0_off3 (i : grid0.Coords) : Fin 2 → Nat :=
  let arg0 : BitVec 32 := BitVec.ofNat 32 (i 0).val
  let c101_i32_6 : BitVec 32 := 101#32
  let v16 : BitVec 32 := Scalar.subi arg0 c101_i32_6
  let c200_i32 : BitVec 32 := 200#32
  let v17 : BitVec 32 := Scalar.muli v16 c200_i32
  let v18 : Index := Scalar.indexCast v17
  let c0 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c51_i32 : BitVec 32 := 51#32
  let v0 : BitVec 1 := Scalar.cmpi .slt arg0 c51_i32
  let c1_i32 : BitVec 32 := 1#32
  let v1 : BitVec 32 := Scalar.subi arg0 c1_i32
  let c0_i32 : BitVec 32 := 0#32
  let v2 : BitVec 32 := Scalar.maxsi v1 c0_i32
  let c101_i32 : BitVec 32 := 101#32
  let v3 : BitVec 1 := Scalar.cmpi .slt arg0 c101_i32
  let c51_i32_0 : BitVec 32 := 51#32
  let v4 : BitVec 32 := Scalar.subi arg0 c51_i32_0
  let c49_i32 : BitVec 32 := 49#32
  let v5 : BitVec 32 := Scalar.select v3 v4 c49_i32
  let v6 : BitVec 32 := Scalar.select v0 v2 v5
  let c0_i32_1 : BitVec 32 := 0#32
  let c0_i32_2 : BitVec 32 := 0#32
  ![v6.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c101_i32 : BitVec 32 := 101#32
  let v0 : BitVec 32 := Scalar.subi arg0 c101_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  shapeCasts_S64_S1x64 : S64.ShapeCasts S1x64
  inb_S10000x256_S10000x256_0_0 : ∀ a, (![0, 0] : Fin 2 → Nat) a + S10000x256.size a ≤ S10000x256.size a
  h_S10000x256 : 0 < S10000x256.numel
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x64_S128x64_0_0 : ∀ a, (![0, 0] : Fin 2 → Nat) a + S128x64.size a ≤ S128x64.size a
  h_S128x64 : 0 < S128x64.numel
  h_S200x64 : 0 < S200x64.numel
  shapeCasts_S200x64_S200x64 : S200x64.ShapeCasts S200x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  reduces_S200x64_S200 : S200x64.Reduces [1] S200
  shapeCasts_S200_S200x1 : S200.ShapeCasts S200x1
  broadcasts_S200x1_S200x64 : S200x1.Broadcasts S200x64
  dot_S10000x256_S256x128_S10000x128_1_0_0_1_n_n_wf : DotDims.WF S10000x256 S256x128 S10000x128 [1] [0] [0] [1] [] []
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  dot_S200x10000_S10000x64_S200x64_1_0_0_1_n_n_wf : DotDims.WF S200x10000 S10000x64 S200x64 [1] [0] [0] [1] [] []
  dot_S200x64_S10000x64_S200x10000_1_1_0_0_n_n_wf : DotDims.WF S200x64 S10000x64 S200x10000 [1] [1] [0] [0] [] []
  hrank0 : 0 < grid0.rank
  k0_off1_inb : ∀ i : grid0.Coords, ∀ (k0_h2 : k0_cond2 i = 1#1), ∀ a, (k0_off1 i) a + S200x64.size a ≤ S10000x64.size a
  k0_off2_inb : ∀ i : grid0.Coords, ∀ (k0_h3 : k0_cond3 i = 1#1), ∀ a, (k0_off2 i) a + S200x64.size a ≤ S10000x64.size a
  k0_off3_inb : ∀ i : grid0.Coords, ∀ (k0_h4 : k0_cond4 i = 1#1), ∀ a, (k0_off3 i) a + S200x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x10000.size a ≤ S10000x10000.size a
  hwx0_6 : ∀ i : grid0.Coords, EltTy.bits .f32 = 32 ∨ (Rect.block (s := S10000x10000) S200x10000.size (cc0_transform_6 i) (hinb0_6 i)).WholeWords (EltTy.packing .f32)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S10000x64_S200x10000_1_1_0_0_n_n : DotDims S200x64 S10000x64 S200x10000 where
  lhsContracting := [1]
  rhsContracting := [1]
  lhsNonContracting := [0]
  rhsNonContracting := [0]
  lhsBatch := []
  rhsBatch := []
  wf := dot_S200x64_S10000x64_S200x10000_1_1_0_0_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S200x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S10000x128 : Shape := ⟨2, ![10000, 128]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩
abbrev S64x10000 : Shape := ⟨2, ![64, 10000]⟩

abbrev nBuf : Space → Nat
  | .hbm => 39
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S10000x64, .f32⟩
  | .hbm, ⟨20, _⟩ => ⟨S_, .f32⟩
  | .hbm, ⟨21, _⟩ => ⟨S10000, .f32⟩
  | .hbm, ⟨22, _⟩ => ⟨S10000x1, .f32⟩
  | .hbm, ⟨23, _⟩ => ⟨S10000x1, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x64, .f32⟩
  | .hbm, ⟨28, _⟩ => ⟨S10000x64, .f32⟩
  | .hbm, ⟨29, _⟩ => ⟨S64x10000, .f32⟩
  | .hbm, ⟨30, _⟩ => ⟨S10000x10000, .f32⟩
  | .hbm, ⟨31, _⟩ => ⟨S10000x10000, .f32⟩
  | .hbm, ⟨32, _⟩ => ⟨S10000x10000, .f32⟩
  | .hbm, ⟨33, _⟩ => ⟨S_, .f32⟩
  | .hbm, ⟨34, _⟩ => ⟨S10000x10000, .f32⟩
  | .hbm, ⟨35, _⟩ => ⟨S10000x10000, .f32⟩
  | .hbm, ⟨36, _⟩ => ⟨S_, .f32⟩
  | .hbm, ⟨37, _⟩ => ⟨S10000x10000, .f32⟩
  | .hbm, ⟨38, _⟩ => ⟨S10000x10000, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x64_0_1 : S10000x1.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x10000_S10000x10000_1_0_0_1_n_n_wf : DotDims.WF S10000x64 S64x10000 S10000x10000 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.K.Conds.lean ====
/- The grid's four phases. The kernel's one axis has 151 points: point 0 fills the first scratch with x·W1; points
   1..50 each write 200 rows of the second scratch; points 51..100 each write 200 rows of the third; points 101..150
   each write one 200-row block of the result. This module decides, once over the grid, which branch conditions hold at
   which point and what the computed row offsets are. -/
import proofs.«138566_g10230612099342_week1_w1_691_6_alg».proof.Proof.Gen.Kernel.Frame
import proofs.«138566_g10230612099342_week1_w1_691_6_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch's condition (the grid coordinate is 0), as the skeleton spells it. -/
abbrev cond1 (i : grid0.Coords) : Prop :=
  (Scalar.cmpi .ne (Scalar.extui (Scalar.cmpi .eq (BitVec.ofNat 32 (i 0).val) 0#32)) 0#32) = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ (1 ≤ t.val ∧ t.val < 51) :=
  (by decide +kernel : ∀ t : Fin grid0.N, k0_cond2 (grid0.coords t) = 1#1 ↔ (1 ≤ t.val ∧ t.val < 51))
theorem hcond3 : ∀ t : Fin cfg0.N, k0_cond3 (grid0.coords t) = 1#1 ↔ (51 ≤ t.val ∧ t.val < 101) :=
  (by decide +kernel : ∀ t : Fin grid0.N, k0_cond3 (grid0.coords t) = 1#1 ↔ (51 ≤ t.val ∧ t.val < 101))
theorem hcond4 : ∀ t : Fin cfg0.N, k0_cond4 (grid0.coords t) = 1#1 ↔ 101 ≤ t.val :=
  (by decide +kernel : ∀ t : Fin grid0.N, k0_cond4 (grid0.coords t) = 1#1 ↔ 101 ≤ t.val)

/-- The row offsets the three sliced accesses compute, in closed form. -/
theorem hoff1 : ∀ t : Fin cfg0.N, k0_cond2 (grid0.coords t) = 1#1 → k0_off1 (grid0.coords t) = ![200 * (t.val - 1), 0] :=
  (by decide +kernel : ∀ t : Fin grid0.N, k0_cond2 (grid0.coords t) = 1#1 → k0_off1 (grid0.coords t) = ![200 * (t.val - 1), 0])
theorem hoff2 : ∀ t : Fin cfg0.N, k0_cond3 (grid0.coords t) = 1#1 → k0_off2 (grid0.coords t) = ![200 * (t.val - 51), 0] :=
  (by decide +kernel : ∀ t : Fin grid0.N, k0_cond3 (grid0.coords t) = 1#1 → k0_off2 (grid0.coords t) = ![200 * (t.val - 51), 0])
theorem hoff3 : ∀ t : Fin cfg0.N, k0_cond4 (grid0.coords t) = 1#1 → k0_off3 (grid0.coords t) = ![200 * (t.val - 101), 0] :=
  (by decide +kernel : ∀ t : Fin grid0.N, k0_cond4 (grid0.coords t) = 1#1 → k0_off3 (grid0.coords t) = ![200 * (t.val - 101), 0])

/-- Where the result window is idle and where it is written back. -/
theorem idle6 : ∀ t : Fin cfg0.N, ¬ k0_cond4 (grid0.coords t) = 1#1 → cfg0.idle 6 (grid0.coords t) = true :=
  (by decide +kernel : ∀ t : Fin grid0.N, ¬ k0_cond4 (grid0.coords t) = 1#1 → cfg0.idle 6 (grid0.coords t) = true)
theorem live6 : ∀ t : Fin cfg0.N, k0_cond4 (grid0.coords t) = 1#1 → cfg0.idle 6 (grid0.coords t) = false :=
  (by decide +kernel : ∀ t : Fin grid0.N, k0_cond4 (grid0.coords t) = 1#1 → cfg0.idle 6 (grid0.coords t) = false)
theorem noFlush6 : ∀ t : Fin cfg0.N, ¬ k0_cond4 (grid0.coords t) = 1#1 → (cfg0.win 6).flush t = false :=
  (by decide +kernel : ∀ t : Fin grid0.N, ¬ k0_cond4 (grid0.coords t) = 1#1 → (cfg0.win 6).flush t = false)
theorem flush6 : ∀ t : Fin cfg0.N, k0_cond4 (grid0.coords t) = 1#1 → (cfg0.win 6).flush t = true :=
  (by decide +kernel : ∀ t : Fin grid0.N, k0_cond4 (grid0.coords t) = 1#1 → (cfg0.win 6).flush t = true)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The block indices of the adjacency window and of the result window, in closed form. -/
theorem idx1 : ∀ t : Fin cfg0.N, cc0_transform_1 (grid0.coords t) = ![if t.val < 51 then t.val - 1 else if t.val < 101 then t.val - 51 else 49, 0] :=
  (by decide +kernel : ∀ t : Fin grid0.N, cc0_transform_1 (grid0.coords t) = ![if t.val < 51 then t.val - 1 else if t.val < 101 then t.val - 51 else 49, 0])
theorem idx6 : ∀ t : Fin cfg0.N, cc0_transform_6 (grid0.coords t) = ![t.val - 101, 0] :=
  (by decide +kernel : ∀ t : Fin grid0.N, cc0_transform_6 (grid0.coords t) = ![t.val - 101, 0])

end Cert.Kernel.Body

end
-- ==== Proof.K.Names.lean ====
/- Names for the body's operands: each window's current staging memref at a point, the three scratch buffers as whole
   memrefs and as views. -/
import proofs.«138566_g10230612099342_week1_w1_691_6_alg».proof.Proof.K.Conds
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev ms0 (t : Fin cfg0.N) : Memref sig .tc .vmem S10000x256 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S200x10000 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S256x128 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x128 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S128x64 .f32 := win0_4.stage (cfg0.slots t 4)
abbrev hs4 (t : Fin cfg0.N) : (ms4 t).IsWhole := Facts₀.hstage0_4 ((cfg0.slots t 4).cast Facts₀.nbuf0_4)
abbrev ms5 (t : Fin cfg0.N) : Memref sig .tc .vmem S1x64 .f32 := win0_5.stage (cfg0.slots t 5)
abbrev hs5 (t : Fin cfg0.N) : (ms5 t).IsWhole := Facts₀.hstage0_5 ((cfg0.slots t 5).cast Facts₀.nbuf0_5)
abbrev ms6 (t : Fin cfg0.N) : Memref sig .tc .vmem S200x10000 .f32 := win0_6.stage (cfg0.slots t 6)
abbrev hs6 (t : Fin cfg0.N) : (ms6 t).IsWhole := Facts₀.hstage0_6 ((cfg0.slots t 6).cast Facts₀.nbuf0_6)

/-- The scratch operands: whole scoped buffers of the kernel's own. -/
abbrev scM0 : Memref sig .tc .vmem S10000x128 .f32 := Memref.whole cc0_scratch0
abbrev scM1 : Memref sig .tc .vmem S10000x64 .f32 := Memref.whole cc0_scratch1
abbrev scM2 : Memref sig .tc .vmem S10000x64 .f32 := Memref.whole cc0_scratch2
abbrev hS0 : scM0.IsWhole := Memref.isWhole_whole _
abbrev hS1 : scM1.IsWhole := Memref.isWhole_whole _
abbrev hS2 : scM2.IsWhole := Memref.isWhole_whole _
abbrev VS0 : View sig .tc .vmem S10000x128 .f32 := scM0.view
abbrev VS1 : View sig .tc .vmem S10000x64 .f32 := scM1.view
abbrev VS2 : View sig .tc .vmem S10000x64 .f32 := scM2.view

/-- The class invariant with the three scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.Kernel.Body

end
-- ==== Proof.K.Data.lean ====
/- The proof data of the kernel's one pipeline.
   The three scratch buffers carry values between grid points: after point 0 the first holds xw = x·W1; after point t in
   1..50 rows below 200·t of the second hold hw; after point t in 51..100 rows below 200·(t − 50) of the third hold the
   normalised embedding z; points 101..150 each store one 200-row block of the result. The arrays XW, HW, Z below are those
   values, each row computed by the payload of the point that stores it, from the windows' blocks at that point. -/
import proofs.«138566_g10230612099342_week1_w1_691_6_alg».proof.Proof.K.Names
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Point n of the grid. -/
def pt (n : ℕ) (h : n < 151) : Fin cfg0.N := ⟨n, lt_of_lt_of_eq h N_0.symm⟩

/-- The windows' blocks at a point, typed by their block shapes. -/
def blk0 (c : Dev nD) (t : Fin cfg0.N) : Vec F S10000x256 .f32 := iblk m c 0 t
def blk1 (c : Dev nD) (t : Fin cfg0.N) : Vec F S200x10000 .f32 := iblk m c 1 t
def blk2 (c : Dev nD) (t : Fin cfg0.N) : Vec F S256x128 .f32 := iblk m c 2 t
def blk3 (c : Dev nD) (t : Fin cfg0.N) : Vec F S1x128 .f32 := iblk m c 3 t
def blk4 (c : Dev nD) (t : Fin cfg0.N) : Vec F S128x64 .f32 := iblk m c 4 t
def blk5 (c : Dev nD) (t : Fin cfg0.N) : Vec F S1x64 .f32 := iblk m c 5 t

/-- What point 0 stores in the first scratch: x · W1. -/
def XW (c : Dev nD) : Vec F S10000x128 .f32 := k0_pay1 (blk0 m c (pt 0 (by omega))) (blk2 m c (pt 0 (by omega)))

/-- What points 1..50 store in the second scratch, row by row: row r is stored by point r / 200 + 1 at local row r % 200. -/
def HW (c : Dev nD) : Vec F S10000x64 .f32 := fun y =>
  k0_pay2 (blk1 m c (pt ((y 0).val / 200 + 1) (by have := idx2_lt0 y; omega))) (XW m c)
    (blk3 m c (pt ((y 0).val / 200 + 1) (by have := idx2_lt0 y; omega))) (blk4 m c (pt ((y 0).val / 200 + 1) (by have := idx2_lt0 y; omega)))
    (ix2 (⟨(y 0).val % 200, Nat.mod_lt _ (by omega)⟩ : Fin 200) (⟨(y 1).val, idx2_lt1 y⟩ : Fin 64))

/-- What points 51..100 store in the third scratch, row by row: row r is stored by point r / 200 + 51 at local row r % 200. -/
def Z (c : Dev nD) : Vec F S10000x64 .f32 := fun y =>
  k0_pay3 (blk1 m c (pt ((y 0).val / 200 + 51) (by have := idx2_lt0 y; omega))) (HW m c)
    (blk5 m c (pt ((y 0).val / 200 + 51) (by have := idx2_lt0 y; omega)))
    (ix2 (⟨(y 0).val % 200, Nat.mod_lt _ (by omega)⟩ : Fin 200) (⟨(y 1).val, idx2_lt1 y⟩ : Fin 64))

/-- The 200 rows of the third scratch a point of the last phase loads: the rectangle the kernel's offset arithmetic names. -/
def zRows (c : Dev nD) (t : Fin cfg0.N) (h : k0_cond4 (grid0.coords t) = 1#1) : Vec F S200x64 .f32 :=
  View.ld (Z m c) (Rect.unit (s := S10000x64) (k0_off3 (grid0.coords t)) S200x64.size (Facts₀.k0_off3_inb (grid0.coords t) h))

/-- What a point leaves in the result window's block: in the last phase the decoder's block, elsewhere nothing (the window is
    idle there; the value is never consulted). -/
def outBlk (c : Dev nD) (t : Fin cfg0.N) : Vec F S200x10000 .f32 :=
  if h : k0_cond4 (grid0.coords t) = 1#1 then k0_pay4 (zRows m c t h) (Z m c) else constant S200x10000 .f32 0x00000000#32

theorem outBlk_pos (c : Dev nD) (t : Fin cfg0.N) (h : k0_cond4 (grid0.coords t) = 1#1) :
    outBlk m c t = k0_pay4 (zRows m c t h) (Z m c) := dif_pos h

/-- What the scratch buffers hold after the body at position n. -/
def Inv (c : Dev nD) (n : ℕ) (s0 : Vec F S10000x128 .f32) (s1 s2 : Vec F S10000x64 .f32) : Prop :=
  s0 = XW m c
    ∧ (∀ y : S10000x64.Idx, (y 0).val < 200 * min n 50 → s1 y = HW m c y)
    ∧ (∀ y : S10000x64.Idx, (y 0).val < 200 * (min n 100 - 50) → s2 y = Z m c y)

/-- The region invariant before position n: before the first point the class's (every scratch at anything); afterwards the
    three scratch buffers at contents satisfying `Inv` of the point before, and the generator register at some state. -/
def PhiS (c : Dev nD) : (n : ℕ) → sProp 𝕄
  | 0 => Pipeline.ΦA spec0 c
  | n + 1 => iprop((∃ s0 s1 s2, ⌜Inv m c n s0 s1 s2⌝ ∗ owns (c : Thread nD τ) scM0 fullShare s0 ∗ owns (c : Thread nD τ) scM1 fullShare s1
      ∗ owns (c : Thread nD τ) scM2 fullShare s2) ∗ (∃ r, prngReg c r))

theorem PhiS_zero (c : Dev nD) : PhiS m c 0 = Pipeline.ΦA spec0 c := rfl
theorem PhiS_succ (c : Dev nD) (n : ℕ) :
    PhiS m c (n + 1) = iprop((∃ s0 s1 s2, ⌜Inv m c n s0 s1 s2⌝ ∗ owns (c : Thread nD τ) scM0 fullShare s0 ∗ owns (c : Thread nD τ) scM1 fullShare s1
      ∗ owns (c : Thread nD τ) scM2 fullShare s2) ∗ (∃ r, prngReg c r)) := rfl
theorem PhiS_pos (c : Dev nD) (n : ℕ) (hz : n ≠ 0) :
    PhiS m c n = iprop((∃ s0 s1 s2, ⌜Inv m c (n - 1) s0 s1 s2⌝ ∗ owns (c : Thread nD τ) scM0 fullShare s0 ∗ owns (c : Thread nD τ) scM1 fullShare s1
      ∗ owns (c : Thread nD τ) scM2 fullShare s2) ∗ (∃ r, prngReg c r)) := by
  cases n with
  | zero => exact absurd rfl hz
  | succ n => rfl

/-- The proof data: the arrays as the region finds them; after the body each input's buffer at its block, the result's at
    `outBlk`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.Kernel.Body

end
-- ==== Proof.K.Runs.lean ====
/- The kernel body run once per phase of the grid. Each lemma: from the buffers the phase reads at named contents, the body
   runs to its end and leaves them as they were, except the one buffer the phase stores into, which holds the phase's
   payload of the loaded values (over the rows the store names, for the two sliced stores). -/
import proofs.«138566_g10230612099342_week1_w1_691_6_alg».proof.Proof.K.Names
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → ℕ) = fun _ => 0 := by
  funext a; match a with | ⟨0, _⟩ => rfl | ⟨1, _⟩ => rfl

/-- One store through the whole-shape rectangle at zero offsets leaves its payload, whatever the buffer held. -/
theorem read_writes_unit_zero {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h
  funext y
  exact View.read_writes_cons_unit_of_mem v f inb w [] y y rfl (fun a => (Nat.zero_add _).symm)

set_option maxHeartbeats 1000000 in
/-- Point 0: x and W1 are loaded, their product stored over the whole first scratch. -/
theorem run1 (c : Dev nD) (i : grid0.Coords)
    (arg1 : Memref sig .tc .vmem S10000x256 .f32) (harg1 : arg1.IsWhole) (arg2 : Memref sig .tc .vmem S200x10000 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S200x10000 .f32) (harg7 : arg7.IsWhole)
    (hc1 : cond1 i) (hc2 : ¬ k0_cond2 i = 1#1) (hc3 : ¬ k0_cond3 i = 1#1) (hc4 : ¬ k0_cond4 i = 1#1)
    (x0 : Vec F S10000x256 .f32) (x2 : Vec F S256x128 .f32)
    (E : Set ℕ) (K : PUnit → sProp 𝕄) :
    iprop(owns (c : Thread nD τ) arg1 fullShare x0 ∗ owns (c : Thread nD τ) arg3 fullShare x2 ∗ (∃ d, owns (c : Thread nD τ) scM0 fullShare d)
        ∗ (iprop(owns (c : Thread nD τ) arg1 fullShare x0 ∗ owns (c : Thread nD τ) arg3 fullShare x2 ∗ owns (c : Thread nD τ) scM0 fullShare (k0_pay1 x0 x2)) -∗ K ⟨⟩))
      ⊢ wp frame (wpE (defs₀ (F := F)) Variants.none c none) E
          (cc0__mega_kernel i arg1 harg1 arg2 harg2 arg3 harg3 arg4 harg4 arg5 harg5 arg6 harg6 arg7 harg7 scM0 hS0 scM1 hS1 scM2 hS2) K := by
  simp only [cc0__mega_kernel_eq_skeleton]; unfold cc0__mega_kernel_skel
  unfold owns
  iintro ⟨⟨%f0, %hf0, H0⟩, ⟨%f2, %hf2, H2⟩, ⟨%d0, %g0, -, G0⟩, Hk⟩
  obtain rfl := harg1.eq_unread hf0; obtain rfl := harg3.eq_unread hf2
  sl_exec (disch := first | exact hc1 | exact hc2 | exact hc3 | exact hc4)
  sl_step
  iapply Hk
  isplitl [H0]
  · iexists _; isplitr; · ipureintro; exact harg1.read_unread _
    iexact H0
  isplitl [H2]
  · iexists _; isplitr; · ipureintro; exact harg3.read_unread _
    iexact H2
  iexists _; isplitr
  swap; · iexact G0
  ipureintro
  rw [read_writes_unit_zero (S := S10000x128) _ _ hz2]
  simp only [View.readAt_eq_ld, hf0, hf2]
  simp only [View.ld_unit_zero (S := S10000x256) hz2, View.ld_unit_zero (S := S256x128) hz2]

set_option maxHeartbeats 1000000 in
/-- Points 1..50: a block of adj, the first scratch, b1 and W2 are loaded; 200 rows of the second scratch are stored. -/
theorem run2 (c : Dev nD) (i : grid0.Coords)
    (arg1 : Memref sig .tc .vmem S10000x256 .f32) (harg1 : arg1.IsWhole) (arg2 : Memref sig .tc .vmem S200x10000 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S200x10000 .f32) (harg7 : arg7.IsWhole)
    (hc1 : ¬cond1 i) (hc2 : k0_cond2 i = 1#1) (hc3 : ¬ k0_cond3 i = 1#1) (hc4 : ¬ k0_cond4 i = 1#1)
    (x1 : Vec F S200x10000 .f32) (x3 : Vec F S1x128 .f32) (x4 : Vec F S128x64 .f32)
    (s0 : Vec F S10000x128 .f32) (s1 : Vec F S10000x64 .f32)
    (E : Set ℕ) (K : PUnit → sProp 𝕄) :
    iprop(owns (c : Thread nD τ) arg2 fullShare x1 ∗ owns (c : Thread nD τ) arg4 fullShare x3 ∗ owns (c : Thread nD τ) arg5 fullShare x4 ∗ owns (c : Thread nD τ) scM0 fullShare s0 ∗ owns (c : Thread nD τ) scM1 fullShare s1
        ∗ (iprop(owns (c : Thread nD τ) arg2 fullShare x1 ∗ owns (c : Thread nD τ) arg4 fullShare x3 ∗ owns (c : Thread nD τ) arg5 fullShare x4 ∗ owns (c : Thread nD τ) scM0 fullShare s0
             ∗ owns (c : Thread nD τ) scM1 fullShare (VS1.read (Elt F) (VS1.writes (Elt F) (hS1.unread s1)
                 [⟨Rect.unit (s := S10000x64) (k0_off1 i) S200x64.size (Facts₀.k0_off1_inb i hc2), k0_pay2 x1 s0 x3 x4⟩]))) -∗ K ⟨⟩))
      ⊢ wp frame (wpE (defs₀ (F := F)) Variants.none c none) E
          (cc0__mega_kernel i arg1 harg1 arg2 harg2 arg3 harg3 arg4 harg4 arg5 harg5 arg6 harg6 arg7 harg7 scM0 hS0 scM1 hS1 scM2 hS2) K := by
  simp only [cc0__mega_kernel_eq_skeleton]; unfold cc0__mega_kernel_skel
  unfold owns
  iintro ⟨⟨%f1, %hf1, H1⟩, ⟨%f3, %hf3, H3⟩, ⟨%f4, %hf4, H4⟩, ⟨%g0, %hg0, G0⟩, ⟨%g1, %hg1, G1⟩, Hk⟩
  obtain rfl := harg2.eq_unread hf1; obtain rfl := harg4.eq_unread hf3; obtain rfl := harg5.eq_unread hf4
  obtain rfl := hS0.eq_unread hg0; obtain rfl := hS1.eq_unread hg1
  sl_exec (disch := first | exact hc1 | exact hc2 | exact hc3 | exact hc4)
  sl_step
  iapply Hk
  isplitl [H1]
  · iexists _; isplitr; · ipureintro; exact harg2.read_unread _
    iexact H1
  isplitl [H3]
  · iexists _; isplitr; · ipureintro; exact harg4.read_unread _
    iexact H3
  isplitl [H4]
  · iexists _; isplitr; · ipureintro; exact harg5.read_unread _
    iexact H4
  isplitl [G0]
  · iexists _; isplitr; · ipureintro; exact hS0.read_unread _
    iexact G0
  iexists _; isplitr
  swap; · iexact G1
  ipureintro
  simp only [View.readAt_eq_ld, hf1, hf3, hf4, hg0]
  simp only [View.ld_unit_zero (S := S200x10000) hz2, View.ld_unit_zero (S := S10000x128) hz2, View.ld_unit_zero (S := S1x128) hz2,
    View.ld_unit_zero (S := S128x64) hz2]

set_option maxHeartbeats 1000000 in
/-- Points 51..100: a block of adj, the second scratch and b2 are loaded; 200 rows of the third scratch are stored. -/
theorem run3 (c : Dev nD) (i : grid0.Coords)
    (arg1 : Memref sig .tc .vmem S10000x256 .f32) (harg1 : arg1.IsWhole) (arg2 : Memref sig .tc .vmem S200x10000 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S200x10000 .f32) (harg7 : arg7.IsWhole)
    (hc1 : ¬cond1 i) (hc2 : ¬ k0_cond2 i = 1#1) (hc3 : k0_cond3 i = 1#1) (hc4 : ¬ k0_cond4 i = 1#1)
    (x1 : Vec F S200x10000 .f32) (x5 : Vec F S1x64 .f32)
    (s1 : Vec F S10000x64 .f32) (s2 : Vec F S10000x64 .f32)
    (E : Set ℕ) (K : PUnit → sProp 𝕄) :
    iprop(owns (c : Thread nD τ) arg2 fullShare x1 ∗ owns (c : Thread nD τ) arg6 fullShare x5 ∗ owns (c : Thread nD τ) scM1 fullShare s1 ∗ owns (c : Thread nD τ) scM2 fullShare s2
        ∗ (iprop(owns (c : Thread nD τ) arg2 fullShare x1 ∗ owns (c : Thread nD τ) arg6 fullShare x5 ∗ owns (c : Thread nD τ) scM1 fullShare s1
             ∗ owns (c : Thread nD τ) scM2 fullShare (VS2.read (Elt F) (VS2.writes (Elt F) (hS2.unread s2)
                 [⟨Rect.unit (s := S10000x64) (k0_off2 i) S200x64.size (Facts₀.k0_off2_inb i hc3), k0_pay3 x1 s1 x5⟩]))) -∗ K ⟨⟩))
      ⊢ wp frame (wpE (defs₀ (F := F)) Variants.none c none) E
          (cc0__mega_kernel i arg1 harg1 arg2 harg2 arg3 harg3 arg4 harg4 arg5 harg5 arg6 harg6 arg7 harg7 scM0 hS0 scM1 hS1 scM2 hS2) K := by
  simp only [cc0__mega_kernel_eq_skeleton]; unfold cc0__mega_kernel_skel
  unfold owns
  iintro ⟨⟨%f1, %hf1, H1⟩, ⟨%f5, %hf5, H5⟩, ⟨%g1, %hg1, G1⟩, ⟨%g2, %hg2, G2⟩, Hk⟩
  obtain rfl := harg2.eq_unread hf1; obtain rfl := harg6.eq_unread hf5
  obtain rfl := hS1.eq_unread hg1; obtain rfl := hS2.eq_unread hg2
  sl_exec (disch := first | exact hc1 | exact hc2 | exact hc3 | exact hc4)
  sl_step
  iapply Hk
  isplitl [H1]
  · iexists _; isplitr; · ipureintro; exact harg2.read_unread _
    iexact H1
  isplitl [H5]
  · iexists _; isplitr; · ipureintro; exact harg6.read_unread _
    iexact H5
  isplitl [G1]
  · iexists _; isplitr; · ipureintro; exact hS1.read_unread _
    iexact G1
  iexists _; isplitr
  swap; · iexact G2
  ipureintro
  simp only [View.readAt_eq_ld, hf1, hf5, hg1]
  simp only [View.ld_unit_zero (S := S200x10000) hz2, View.ld_unit_zero (S := S10000x64) hz2, View.ld_unit_zero (S := S1x64) hz2]

set_option maxHeartbeats 1000000 in
/-- Points 101..150: 200 rows of the third scratch and the whole of it are loaded; the result block is stored whole. -/
theorem run4 (c : Dev nD) (i : grid0.Coords)
    (arg1 : Memref sig .tc .vmem S10000x256 .f32) (harg1 : arg1.IsWhole) (arg2 : Memref sig .tc .vmem S200x10000 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S200x10000 .f32) (harg7 : arg7.IsWhole)
    (hc1 : ¬cond1 i) (hc2 : ¬ k0_cond2 i = 1#1) (hc3 : ¬ k0_cond3 i = 1#1) (hc4 : k0_cond4 i = 1#1)
    (s2 : Vec F S10000x64 .f32)
    (E : Set ℕ) (K : PUnit → sProp 𝕄) :
    iprop(owns (c : Thread nD τ) scM2 fullShare s2 ∗ (∃ d, owns (c : Thread nD τ) arg7 fullShare d)
        ∗ (iprop(owns (c : Thread nD τ) scM2 fullShare s2
             ∗ owns (c : Thread nD τ) arg7 fullShare (k0_pay4 (View.ld s2 (Rect.unit (s := S10000x64) (k0_off3 i) S200x64.size (Facts₀.k0_off3_inb i hc4))) s2)) -∗ K ⟨⟩))
      ⊢ wp frame (wpE (defs₀ (F := F)) Variants.none c none) E
          (cc0__mega_kernel i arg1 harg1 arg2 harg2 arg3 harg3 arg4 harg4 arg5 harg5 arg6 harg6 arg7 harg7 scM0 hS0 scM1 hS1 scM2 hS2) K := by
  simp only [cc0__mega_kernel_eq_skeleton]; unfold cc0__mega_kernel_skel
  unfold owns
  iintro ⟨⟨%g2, %hg2, G2⟩, ⟨%d7, %f7, -, H7⟩, Hk⟩
  obtain rfl := hS2.eq_unread hg2
  sl_exec (disch := first | exact hc1 | exact hc2 | exact hc3 | exact hc4)
  sl_step
  iapply Hk
  isplitl [G2]
  · iexists _; isplitr; · ipureintro; exact hS2.read_unread _
    iexact G2
  iexists _; isplitr
  swap; · iexact H7
  ipureintro
  rw [read_writes_unit_zero (S := S200x10000) _ _ hz2]
  simp only [View.readAt_eq_ld, hg2]
  simp only [View.ld_unit_zero (S := S10000x64) hz2]

end Cert.Kernel.Body

end
-- ==== Proof.K.Steps.lean ====
/- How the scratch invariant moves from one grid point to the next: each phase's store, read back row by row, is the row
   of the array the invariant names (the rows a sliced store covers are those of its point; the other rows keep what they held). -/
import proofs.«138566_g10230612099342_week1_w1_691_6_alg».proof.Proof.K.Data
import proofs.«138566_g10230612099342_week1_w1_691_6_alg».proof.Proof.K.Runs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem pt_eq (t : Fin cfg0.N) (n : ℕ) (h : n < 151) (e : t.val = n) : pt n h = t := Fin.ext e.symm

/-- After point 0 the first scratch is x · W1. -/
theorem inv1 (c : Dev nD) (t : Fin cfg0.N) (h0 : t.val = 0) (s1 s2 : Vec F S10000x64 .f32) :
    Inv m c t.val (k0_pay1 (iblk m c 0 t) (iblk m c 2 t)) s1 s2 := by
  refine ⟨?_, fun y hy => ?_, fun y hy => ?_⟩
  · unfold XW blk0 blk2; rw [pt_eq t 0 (by omega) h0]
  · exfalso; rw [h0] at hy; simp at hy
  · exfalso; rw [h0] at hy; simp at hy

/-- A point of the second phase adds its 200 rows of hw. -/
theorem inv2 (c : Dev nD) (t : Fin cfg0.N) (hc2 : k0_cond2 (grid0.coords t) = 1#1)
    (s0 : Vec F S10000x128 .f32) (s1 s2 : Vec F S10000x64 .f32) (hI : Inv m c (t.val - 1) s0 s1 s2) :
    Inv m c t.val s0 (VS1.read (Elt F) (VS1.writes (Elt F) (hS1.unread s1)
      [⟨Rect.unit (s := S10000x64) (k0_off1 (grid0.coords t)) S200x64.size (Facts₀.k0_off1_inb (grid0.coords t) hc2),
        k0_pay2 (iblk m c 1 t) s0 (iblk m c 3 t) (iblk m c 4 t)⟩])) s2 := by
  obtain ⟨ht1, ht2⟩ := (hcond2 t).mp hc2
  obtain ⟨e0, e1, e2⟩ := hI
  refine ⟨e0, fun y hy => ?_, fun y hy => ?_⟩
  · have hmin : min t.val 50 = t.val := by omega
    rw [hmin] at hy
    by_cases hlt : (y 0).val < 200 * (t.val - 1)
    · rw [View.read_writes_cons_rows_of_not_mem VS1 _ _ _ [] y (hoff1 t hc2) (W := 200) rfl (Or.inl hlt)]
      rw [View.writes_nil, hS1.read_unread]
      exact e1 y (by have : min (t.val - 1) 50 = t.val - 1 := by omega
                     rw [this]; exact hlt)
    · have hr : (y 0).val / 200 + 1 = t.val := by omega
      refine (View.read_writes_cons_rows_of_mem VS1 (hS1.unread s1) (Facts₀.k0_off1_inb (grid0.coords t) hc2)
        (k0_pay2 (iblk m c 1 t) s0 (iblk m c 3 t) (iblk m c 4 t)) [] y
        (ix2 (⟨(y 0).val % 200, Nat.mod_lt _ (by omega)⟩ : Fin 200) (⟨(y 1).val, idx2_lt1 y⟩ : Fin 64)) (hoff1 t hc2)
        (by show (y 0).val = 200 * (t.val - 1) + (y 0).val % 200; omega) rfl).trans ?_
      unfold HW blk1 blk3 blk4
      rw [pt_eq t _ _ hr.symm, e0]
  · exact e2 y (by have : min (t.val - 1) 100 - 50 = 0 := by omega
                   have h' : min t.val 100 - 50 = 0 := by omega
                   rw [h'] at hy; simp at hy)

/-- A point of the third phase adds its 200 rows of the normalised embedding. -/
theorem inv3 (c : Dev nD) (t : Fin cfg0.N) (hc3 : k0_cond3 (grid0.coords t) = 1#1)
    (s0 : Vec F S10000x128 .f32) (s1 s2 : Vec F S10000x64 .f32) (hI : Inv m c (t.val - 1) s0 s1 s2) :
    Inv m c t.val s0 s1 (VS2.read (Elt F) (VS2.writes (Elt F) (hS2.unread s2)
      [⟨Rect.unit (s := S10000x64) (k0_off2 (grid0.coords t)) S200x64.size (Facts₀.k0_off2_inb (grid0.coords t) hc3),
        k0_pay3 (iblk m c 1 t) s1 (iblk m c 5 t)⟩])) := by
  obtain ⟨ht1, ht2⟩ := (hcond3 t).mp hc3
  obtain ⟨e0, e1, e2⟩ := hI
  have hs1 : s1 = HW m c := funext fun y => e1 y (by
    have : min (t.val - 1) 50 = 50 := by omega
    rw [this]; have := idx2_lt0 y; omega)
  refine ⟨e0, fun y hy => e1 y (by
    have h1 : min (t.val - 1) 50 = 50 := by omega
    have h2 : min t.val 50 = 50 := by omega
    rw [h1]; rw [h2] at hy; exact hy), fun y hy => ?_⟩
  have hmin : min t.val 100 - 50 = t.val - 50 := by omega
  rw [hmin] at hy
  by_cases hlt : (y 0).val < 200 * (t.val - 51)
  · rw [View.read_writes_cons_rows_of_not_mem VS2 _ _ _ [] y (hoff2 t hc3) (W := 200) rfl (Or.inl hlt)]
    rw [View.writes_nil, hS2.read_unread]
    exact e2 y (by have : min (t.val - 1) 100 - 50 = t.val - 51 := by omega
                   rw [this]; exact hlt)
  · have hr : (y 0).val / 200 + 51 = t.val := by omega
    refine (View.read_writes_cons_rows_of_mem VS2 (hS2.unread s2) (Facts₀.k0_off2_inb (grid0.coords t) hc3)
      (k0_pay3 (iblk m c 1 t) s1 (iblk m c 5 t)) [] y
      (ix2 (⟨(y 0).val % 200, Nat.mod_lt _ (by omega)⟩ : Fin 200) (⟨(y 1).val, idx2_lt1 y⟩ : Fin 64)) (hoff2 t hc3)
      (by show (y 0).val = 200 * (t.val - 51) + (y 0).val % 200; omega) rfl).trans ?_
    unfold Z blk1 blk5
    rw [pt_eq t _ _ hr.symm, hs1]

/-- A point of the last phase leaves the scratch as it found it, -/
theorem inv4 (c : Dev nD) (t : Fin cfg0.N) (hc4 : k0_cond4 (grid0.coords t) = 1#1)
    (s0 : Vec F S10000x128 .f32) (s1 s2 : Vec F S10000x64 .f32) (hI : Inv m c (t.val - 1) s0 s1 s2) :
    Inv m c t.val s0 s1 s2 := by
  have ht := (hcond4 t).mp hc4
  obtain ⟨e0, e1, e2⟩ := hI
  refine ⟨e0, fun y hy => e1 y (by
    have h1 : min (t.val - 1) 50 = 50 := by omega
    have h2 : min t.val 50 = 50 := by omega
    rw [h1]; rw [h2] at hy; exact hy), fun y hy => e2 y (by
    have h1 : min (t.val - 1) 100 - 50 = 50 := by omega
    have h2 : min t.val 100 - 50 = 50 := by omega
    rw [h1]; rw [h2] at hy; exact hy)⟩

/-- and stores the decoder's block of the embedding the third scratch now holds whole. -/
theorem out4 (c : Dev nD) (t : Fin cfg0.N) (hc4 : k0_cond4 (grid0.coords t) = 1#1)
    (s0 : Vec F S10000x128 .f32) (s1 s2 : Vec F S10000x64 .f32) (hI : Inv m c (t.val - 1) s0 s1 s2) :
    k0_pay4 (View.ld s2 (Rect.unit (s := S10000x64) (k0_off3 (grid0.coords t)) S200x64.size (Facts₀.k0_off3_inb (grid0.coords t) hc4))) s2
      = outBlk m c t := by
  have ht := (hcond4 t).mp hc4
  obtain ⟨e0, e1, e2⟩ := hI
  have hs2 : s2 = Z m c := funext fun y => e2 y (by
    have : min (t.val - 1) 100 - 50 = 50 := by omega
    rw [this]; have := idx2_lt0 y; omega)
  rw [outBlk_pos m c t hc4, hs2]; rfl

end Cert.Kernel.Body

end
-- ==== Proof.K.Oblig.lean ====
/- The body obligation of the pipeline library, at every grid point: which phase the point is in is decided by the closed forms of
   the branch conditions; the phase's run applies; the scratch invariant moves by the step lemmas. -/
import proofs.«138566_g10230612099342_week1_w1_691_6_alg».proof.Proof.K.Steps

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from rfl]
  have hN : t.val < 151 := lt_of_lt_of_eq t.isLt N_0
  rw [show (dats m 0 c).leavesExact 0 t = owns (c : Thread nD τ) (ms0 t) fullShare (iblk m c 0 t) from by
    unfold Dat.leavesExact; rw [live0 t, after0]]
  rw [show (dats m 0 c).leavesExact 1 t = owns (c : Thread nD τ) (ms1 t) fullShare (iblk m c 1 t) from by
    unfold Dat.leavesExact; rw [live1 t, after1]]
  rw [show (dats m 0 c).leavesExact 2 t = owns (c : Thread nD τ) (ms2 t) fullShare (iblk m c 2 t) from by
    unfold Dat.leavesExact; rw [live2 t, after2]]
  rw [show (dats m 0 c).leavesExact 3 t = owns (c : Thread nD τ) (ms3 t) fullShare (iblk m c 3 t) from by
    unfold Dat.leavesExact; rw [live3 t, after3]]
  rw [show (dats m 0 c).leavesExact 4 t = owns (c : Thread nD τ) (ms4 t) fullShare (iblk m c 4 t) from by
    unfold Dat.leavesExact; rw [live4 t, after4]]
  rw [show (dats m 0 c).leavesExact 5 t = owns (c : Thread nD τ) (ms5 t) fullShare (iblk m c 5 t) from by
    unfold Dat.leavesExact; rw [live5 t, after5]]
  by_cases h0 : t.val = 0
  · have hc1 : cond1 (grid0.coords t) := (hcond1 t).mpr h0
    have hc2 : ¬ k0_cond2 (grid0.coords t) = 1#1 := fun h => by have := (hcond2 t).mp h; omega
    have hc3 : ¬ k0_cond3 (grid0.coords t) = 1#1 := fun h => by have := (hcond3 t).mp h; omega
    have hc4 : ¬ k0_cond4 (grid0.coords t) = 1#1 := fun h => by have := (hcond4 t).mp h; omega
    rw [Dat.leavesExact_idle (dats m 0 c) 6 t (idle6 t hc4) (noFlush6 t hc4)]
    rw [show PhiS m c t.val = Pipeline.ΦA spec0 c from by rw [h0]; rfl, PhiA0_eq]
    iintro ⟨⟨⟨⟨%d0, G0⟩, ⟨%d1, G1⟩, ⟨%d2, G2⟩⟩, Hg⟩, Ho, ⟨%e0, H0⟩, ⟨%e1, H1⟩, ⟨%e2, H2⟩, ⟨%e3, H3⟩, ⟨%e4, H4⟩, ⟨%e5, H5⟩, ⟨%e6, H6⟩⟩
    iapply (run1 c (grid0.coords t) _ _ _ _ _ _ _ _ _ _ _ _ _ _ hc1 hc2 hc3 hc4 (iblk m c 0 t) (iblk m c 2 t) Set.univ _)
    isplitl [H0]; · iexact H0
    isplitl [H2]; · iexact H2
    isplitl [G0]; · iexists _; iexact G0
    iintro ⟨H0, H2, G0⟩
    isplitl [G0 G1 G2 Hg]
    · isplitl [G0 G1 G2]
      · iexists _; iexists d1; iexists d2
        isplitr; · ipureintro; exact inv1 m c t h0 d1 d2
        isplitl [G0]; · iexact G0
        isplitl [G1]; · iexact G1
        iexact G2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [PhiS_pos m c t.val h0]
    by_cases h2 : t.val < 51
    · have hc1 : ¬ cond1 (grid0.coords t) := fun h => h0 ((hcond1 t).mp h)
      have hc2 : k0_cond2 (grid0.coords t) = 1#1 := (hcond2 t).mpr ⟨by omega, h2⟩
      have hc3 : ¬ k0_cond3 (grid0.coords t) = 1#1 := fun h => by have := (hcond3 t).mp h; omega
      have hc4 : ¬ k0_cond4 (grid0.coords t) = 1#1 := fun h => by have := (hcond4 t).mp h; omega
      rw [Dat.leavesExact_idle (dats m 0 c) 6 t (idle6 t hc4) (noFlush6 t hc4)]
      iintro ⟨⟨⟨%s0, %s1, %s2, %hI, G0, G1, G2⟩, Hg⟩, Ho, ⟨%e0, H0⟩, ⟨%e1, H1⟩, ⟨%e2, H2⟩, ⟨%e3, H3⟩, ⟨%e4, H4⟩, ⟨%e5, H5⟩, ⟨%e6, H6⟩⟩
      iapply (run2 c (grid0.coords t) _ _ _ _ _ _ _ _ _ _ _ _ _ _ hc1 hc2 hc3 hc4 (iblk m c 1 t) (iblk m c 3 t) (iblk m c 4 t) s0 s1 Set.univ _)
      isplitl [H1]; · iexact H1
      isplitl [H3]; · iexact H3
      isplitl [H4]; · iexact H4
      isplitl [G0]; · iexact G0
      isplitl [G1]; · iexact G1
      iintro ⟨H1, H3, H4, G0, G1⟩
      isplitl [G0 G1 G2 Hg]
      · isplitl [G0 G1 G2]
        · iexists s0; iexists _; iexists s2
          isplitr; · ipureintro; exact inv2 m c t hc2 s0 s1 s2 hI
          isplitl [G0]; · iexact G0
          isplitl [G1]; · iexact G1
          iexact G2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · by_cases h3 : t.val < 101
      · have hc1 : ¬ cond1 (grid0.coords t) := fun h => h0 ((hcond1 t).mp h)
        have hc2 : ¬ k0_cond2 (grid0.coords t) = 1#1 := fun h => by have := (hcond2 t).mp h; omega
        have hc3 : k0_cond3 (grid0.coords t) = 1#1 := (hcond3 t).mpr ⟨by omega, h3⟩
        have hc4 : ¬ k0_cond4 (grid0.coords t) = 1#1 := fun h => by have := (hcond4 t).mp h; omega
        rw [Dat.leavesExact_idle (dats m 0 c) 6 t (idle6 t hc4) (noFlush6 t hc4)]
        iintro ⟨⟨⟨%s0, %s1, %s2, %hI, G0, G1, G2⟩, Hg⟩, Ho, ⟨%e0, H0⟩, ⟨%e1, H1⟩, ⟨%e2, H2⟩, ⟨%e3, H3⟩, ⟨%e4, H4⟩, ⟨%e5, H5⟩, ⟨%e6, H6⟩⟩
        iapply (run3 c (grid0.coords t) _ _ _ _ _ _ _ _ _ _ _ _ _ _ hc1 hc2 hc3 hc4 (iblk m c 1 t) (iblk m c 5 t) s1 s2 Set.univ _)
        isplitl [H1]; · iexact H1
        isplitl [H5]; · iexact H5
        isplitl [G1]; · iexact G1
        isplitl [G2]; · iexact G2
        iintro ⟨H1, H5, G1, G2⟩
        isplitl [G0 G1 G2 Hg]
        · isplitl [G0 G1 G2]
          · iexists s0; iexists s1; iexists _
            isplitr; · ipureintro; exact inv3 m c t hc3 s0 s1 s2 hI
            isplitl [G0]; · iexact G0
            isplitl [G1]; · iexact G1
            iexact G2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · have hc1 : ¬ cond1 (grid0.coords t) := fun h => h0 ((hcond1 t).mp h)
        have hc2 : ¬ k0_cond2 (grid0.coords t) = 1#1 := fun h => by have := (hcond2 t).mp h; omega
        have hc3 : ¬ k0_cond3 (grid0.coords t) = 1#1 := fun h => by have := (hcond3 t).mp h; omega
        have hc4 : k0_cond4 (grid0.coords t) = 1#1 := (hcond4 t).mpr (by omega)
        rw [show (dats m 0 c).leavesExact 6 t = owns (c : Thread nD τ) (ms6 t) fullShare (outBlk m c t) from by
          unfold Dat.leavesExact; rw [live6 t hc4, after6]]
        iintro ⟨⟨⟨%s0, %s1, %s2, %hI, G0, G1, G2⟩, Hg⟩, Ho, ⟨%e0, H0⟩, ⟨%e1, H1⟩, ⟨%e2, H2⟩, ⟨%e3, H3⟩, ⟨%e4, H4⟩, ⟨%e5, H5⟩, ⟨%e6, H6⟩⟩
        iapply (run4 c (grid0.coords t) _ _ _ _ _ _ _ _ _ _ _ _ _ _ hc1 hc2 hc3 hc4 s2 Set.univ _)
        isplitl [G2]; · iexact G2
        isplitl [H6]; · iexists _; iexact H6
        iintro ⟨G2, H6⟩
        isplitl [G0 G1 G2 Hg]
        · isplitl [G0 G1 G2]
          · iexists s0; iexists s1; iexists s2
            isplitr; · ipureintro; exact inv4 m c t hc4 s0 s1 s2 hI
            isplitl [G0]; · iexact G0
            isplitl [G1]; · iexact G1
            iexact G2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        rw [← out4 m c t hc4 s0 s1 s2 hI]
        iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero]

/-- After the last point the invariant gives the class's back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 151 := N_0; omega), PhiA0_eq]
  iintro ⟨⟨%s0, %s1, %s2, %hI, G0, G1, G2⟩, Hg⟩
  isplitl [G0 G1 G2]
  · isplitl [G0]; · iexists _; iexact G0
    isplitl [G1]; · iexists _; iexact G1
    iexists _; iexact G2
  iexact Hg

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KI.Conds.lean ====
/- The grid's four phases. The kernel's one axis has 151 points: point 0 fills the first scratch with x·W1; points
   1..50 each write 200 rows of the second scratch; points 51..100 each write 200 rows of the third; points 101..150
   each write one 200-row block of the result. This module decides, once over the grid, which branch conditions hold at
   which point and what the computed row offsets are. -/
import proofs.«138566_g10230612099342_week1_w1_691_6_alg».proof.Proof.Gen.KernelIdeal.Frame
import proofs.«138566_g10230612099342_week1_w1_691_6_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch's condition (the grid coordinate is 0), as the skeleton spells it. -/
abbrev cond1 (i : grid0.Coords) : Prop :=
  (Scalar.cmpi .ne (Scalar.extui (Scalar.cmpi .eq (BitVec.ofNat 32 (i 0).val) 0#32)) 0#32) = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ (1 ≤ t.val ∧ t.val < 51) :=
  (by decide +kernel : ∀ t : Fin grid0.N, k0_cond2 (grid0.coords t) = 1#1 ↔ (1 ≤ t.val ∧ t.val < 51))
theorem hcond3 : ∀ t : Fin cfg0.N, k0_cond3 (grid0.coords t) = 1#1 ↔ (51 ≤ t.val ∧ t.val < 101) :=
  (by decide +kernel : ∀ t : Fin grid0.N, k0_cond3 (grid0.coords t) = 1#1 ↔ (51 ≤ t.val ∧ t.val < 101))
theorem hcond4 : ∀ t : Fin cfg0.N, k0_cond4 (grid0.coords t) = 1#1 ↔ 101 ≤ t.val :=
  (by decide +kernel : ∀ t : Fin grid0.N, k0_cond4 (grid0.coords t) = 1#1 ↔ 101 ≤ t.val)

/-- The row offsets the three sliced accesses compute, in closed form. -/
theorem hoff1 : ∀ t : Fin cfg0.N, k0_cond2 (grid0.coords t) = 1#1 → k0_off1 (grid0.coords t) = ![200 * (t.val - 1), 0] :=
  (by decide +kernel : ∀ t : Fin grid0.N, k0_cond2 (grid0.coords t) = 1#1 → k0_off1 (grid0.coords t) = ![200 * (t.val - 1), 0])
theorem hoff2 : ∀ t : Fin cfg0.N, k0_cond3 (grid0.coords t) = 1#1 → k0_off2 (grid0.coords t) = ![200 * (t.val - 51), 0] :=
  (by decide +kernel : ∀ t : Fin grid0.N, k0_cond3 (grid0.coords t) = 1#1 → k0_off2 (grid0.coords t) = ![200 * (t.val - 51), 0])
theorem hoff3 : ∀ t : Fin cfg0.N, k0_cond4 (grid0.coords t) = 1#1 → k0_off3 (grid0.coords t) = ![200 * (t.val - 101), 0] :=
  (by decide +kernel : ∀ t : Fin grid0.N, k0_cond4 (grid0.coords t) = 1#1 → k0_off3 (grid0.coords t) = ![200 * (t.val - 101), 0])

/-- Where the result window is idle and where it is written back. -/
theorem idle6 : ∀ t : Fin cfg0.N, ¬ k0_cond4 (grid0.coords t) = 1#1 → cfg0.idle 6 (grid0.coords t) = true :=
  (by decide +kernel : ∀ t : Fin grid0.N, ¬ k0_cond4 (grid0.coords t) = 1#1 → cfg0.idle 6 (grid0.coords t) = true)
theorem live6 : ∀ t : Fin cfg0.N, k0_cond4 (grid0.coords t) = 1#1 → cfg0.idle 6 (grid0.coords t) = false :=
  (by decide +kernel : ∀ t : Fin grid0.N, k0_cond4 (grid0.coords t) = 1#1 → cfg0.idle 6 (grid0.coords t) = false)
theorem noFlush6 : ∀ t : Fin cfg0.N, ¬ k0_cond4 (grid0.coords t) = 1#1 → (cfg0.win 6).flush t = false :=
  (by decide +kernel : ∀ t : Fin grid0.N, ¬ k0_cond4 (grid0.coords t) = 1#1 → (cfg0.win 6).flush t = false)
theorem flush6 : ∀ t : Fin cfg0.N, k0_cond4 (grid0.coords t) = 1#1 → (cfg0.win 6).flush t = true :=
  (by decide +kernel : ∀ t : Fin grid0.N, k0_cond4 (grid0.coords t) = 1#1 → (cfg0.win 6).flush t = true)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The block indices of the adjacency window and of the result window, in closed form. -/
theorem idx1 : ∀ t : Fin cfg0.N, cc0_transform_1 (grid0.coords t) = ![if t.val < 51 then t.val - 1 else if t.val < 101 then t.val - 51 else 49, 0] :=
  (by decide +kernel : ∀ t : Fin grid0.N, cc0_transform_1 (grid0.coords t) = ![if t.val < 51 then t.val - 1 else if t.val < 101 then t.val - 51 else 49, 0])
theorem idx6 : ∀ t : Fin cfg0.N, cc0_transform_6 (grid0.coords t) = ![t.val - 101, 0] :=
  (by decide +kernel : ∀ t : Fin grid0.N, cc0_transform_6 (grid0.coords t) = ![t.val - 101, 0])

end Cert.KernelIdeal.Body

end
-- ==== Proof.KI.Names.lean ====
/- Names for the body's operands: each window's current staging memref at a point, the three scratch buffers as whole
   memrefs and as views. -/
import proofs.«138566_g10230612099342_week1_w1_691_6_alg».proof.Proof.KI.Conds
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev ms0 (t : Fin cfg0.N) : Memref sig .tc .vmem S10000x256 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S200x10000 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S256x128 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x128 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S128x64 .f32 := win0_4.stage (cfg0.slots t 4)
abbrev hs4 (t : Fin cfg0.N) : (ms4 t).IsWhole := Facts₀.hstage0_4 ((cfg0.slots t 4).cast Facts₀.nbuf0_4)
abbrev ms5 (t : Fin cfg0.N) : Memref sig .tc .vmem S1x64 .f32 := win0_5.stage (cfg0.slots t 5)
abbrev hs5 (t : Fin cfg0.N) : (ms5 t).IsWhole := Facts₀.hstage0_5 ((cfg0.slots t 5).cast Facts₀.nbuf0_5)
abbrev ms6 (t : Fin cfg0.N) : Memref sig .tc .vmem S200x10000 .f32 := win0_6.stage (cfg0.slots t 6)
abbrev hs6 (t : Fin cfg0.N) : (ms6 t).IsWhole := Facts₀.hstage0_6 ((cfg0.slots t 6).cast Facts₀.nbuf0_6)

/-- The scratch operands: whole scoped buffers of the kernel's own. -/
abbrev scM0 : Memref sig .tc .vmem S10000x128 .f32 := Memref.whole cc0_scratch0
abbrev scM1 : Memref sig .tc .vmem S10000x64 .f32 := Memref.whole cc0_scratch1
abbrev scM2 : Memref sig .tc .vmem S10000x64 .f32 := Memref.whole cc0_scratch2
abbrev hS0 : scM0.IsWhole := Memref.isWhole_whole _
abbrev hS1 : scM1.IsWhole := Memref.isWhole_whole _
abbrev hS2 : scM2.IsWhole := Memref.isWhole_whole _
abbrev VS0 : View sig .tc .vmem S10000x128 .f32 := scM0.view
abbrev VS1 : View sig .tc .vmem S10000x64 .f32 := scM1.view
abbrev VS2 : View sig .tc .vmem S10000x64 .f32 := scM2.view

/-- The class invariant with the three scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.KernelIdeal.Body

end
-- ==== Proof.KI.Data.lean ====
/- The proof data of the kernel's one pipeline.
   The three scratch buffers carry values between grid points: after point 0 the first holds xw = x·W1; after point t in
   1..50 rows below 200·t of the second hold hw; after point t in 51..100 rows below 200·(t − 50) of the third hold the
   normalised embedding z; points 101..150 each store one 200-row block of the result. The arrays XW, HW, Z below are those
   values, each row computed by the payload of the point that stores it, from the windows' blocks at that point. -/
import proofs.«138566_g10230612099342_week1_w1_691_6_alg».proof.Proof.KI.Names
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Point n of the grid. -/
def pt (n : ℕ) (h : n < 151) : Fin cfg0.N := ⟨n, lt_of_lt_of_eq h N_0.symm⟩

/-- The windows' blocks at a point, typed by their block shapes. -/
def blk0 (c : Dev nD) (t : Fin cfg0.N) : Vec F S10000x256 .f32 := iblk m c 0 t
def blk1 (c : Dev nD) (t : Fin cfg0.N) : Vec F S200x10000 .f32 := iblk m c 1 t
def blk2 (c : Dev nD) (t : Fin cfg0.N) : Vec F S256x128 .f32 := iblk m c 2 t
def blk3 (c : Dev nD) (t : Fin cfg0.N) : Vec F S1x128 .f32 := iblk m c 3 t
def blk4 (c : Dev nD) (t : Fin cfg0.N) : Vec F S128x64 .f32 := iblk m c 4 t
def blk5 (c : Dev nD) (t : Fin cfg0.N) : Vec F S1x64 .f32 := iblk m c 5 t

/-- What point 0 stores in the first scratch: x · W1. -/
def XW (c : Dev nD) : Vec F S10000x128 .f32 := k0_pay1 (blk0 m c (pt 0 (by omega))) (blk2 m c (pt 0 (by omega)))

/-- What points 1..50 store in the second scratch, row by row: row r is stored by point r / 200 + 1 at local row r % 200. -/
def HW (c : Dev nD) : Vec F S10000x64 .f32 := fun y =>
  k0_pay2 (blk1 m c (pt ((y 0).val / 200 + 1) (by have := idx2_lt0 y; omega))) (XW m c)
    (blk3 m c (pt ((y 0).val / 200 + 1) (by have := idx2_lt0 y; omega))) (blk4 m c (pt ((y 0).val / 200 + 1) (by have := idx2_lt0 y; omega)))
    (ix2 (⟨(y 0).val % 200, Nat.mod_lt _ (by omega)⟩ : Fin 200) (⟨(y 1).val, idx2_lt1 y⟩ : Fin 64))

/-- What points 51..100 store in the third scratch, row by row: row r is stored by point r / 200 + 51 at local row r % 200. -/
def Z (c : Dev nD) : Vec F S10000x64 .f32 := fun y =>
  k0_pay3 (blk1 m c (pt ((y 0).val / 200 + 51) (by have := idx2_lt0 y; omega))) (HW m c)
    (blk5 m c (pt ((y 0).val / 200 + 51) (by have := idx2_lt0 y; omega)))
    (ix2 (⟨(y 0).val % 200, Nat.mod_lt _ (by omega)⟩ : Fin 200) (⟨(y 1).val, idx2_lt1 y⟩ : Fin 64))

/-- The 200 rows of the third scratch a point of the last phase loads: the rectangle the kernel's offset arithmetic names. -/
def zRows (c : Dev nD) (t : Fin cfg0.N) (h : k0_cond4 (grid0.coords t) = 1#1) : Vec F S200x64 .f32 :=
  View.ld (Z m c) (Rect.unit (s := S10000x64) (k0_off3 (grid0.coords t)) S200x64.size (Facts₀.k0_off3_inb (grid0.coords t) h))

/-- What a point leaves in the result window's block: in the last phase the decoder's block, elsewhere nothing (the window is
    idle there; the value is never consulted). -/
def outBlk (c : Dev nD) (t : Fin cfg0.N) : Vec F S200x10000 .f32 :=
  if h : k0_cond4 (grid0.coords t) = 1#1 then k0_pay4 (zRows m c t h) (Z m c) else constant S200x10000 .f32 0x00000000#32

theorem outBlk_pos (c : Dev nD) (t : Fin cfg0.N) (h : k0_cond4 (grid0.coords t) = 1#1) :
    outBlk m c t = k0_pay4 (zRows m c t h) (Z m c) := dif_pos h

/-- What the scratch buffers hold after the body at position n. -/
def Inv (c : Dev nD) (n : ℕ) (s0 : Vec F S10000x128 .f32) (s1 s2 : Vec F S10000x64 .f32) : Prop :=
  s0 = XW m c
    ∧ (∀ y : S10000x64.Idx, (y 0).val < 200 * min n 50 → s1 y = HW m c y)
    ∧ (∀ y : S10000x64.Idx, (y 0).val < 200 * (min n 100 - 50) → s2 y = Z m c y)

/-- The region invariant before position n: before the first point the class's (every scratch at anything); afterwards the
    three scratch buffers at contents satisfying `Inv` of the point before, and the generator register at some state. -/
def PhiS (c : Dev nD) : (n : ℕ) → sProp 𝕄
  | 0 => Pipeline.ΦA spec0 c
  | n + 1 => iprop((∃ s0 s1 s2, ⌜Inv m c n s0 s1 s2⌝ ∗ owns (c : Thread nD τ) scM0 fullShare s0 ∗ owns (c : Thread nD τ) scM1 fullShare s1
      ∗ owns (c : Thread nD τ) scM2 fullShare s2) ∗ (∃ r, prngReg c r))

theorem PhiS_zero (c : Dev nD) : PhiS m c 0 = Pipeline.ΦA spec0 c := rfl
theorem PhiS_succ (c : Dev nD) (n : ℕ) :
    PhiS m c (n + 1) = iprop((∃ s0 s1 s2, ⌜Inv m c n s0 s1 s2⌝ ∗ owns (c : Thread nD τ) scM0 fullShare s0 ∗ owns (c : Thread nD τ) scM1 fullShare s1
      ∗ owns (c : Thread nD τ) scM2 fullShare s2) ∗ (∃ r, prngReg c r)) := rfl
theorem PhiS_pos (c : Dev nD) (n : ℕ) (hz : n ≠ 0) :
    PhiS m c n = iprop((∃ s0 s1 s2, ⌜Inv m c (n - 1) s0 s1 s2⌝ ∗ owns (c : Thread nD τ) scM0 fullShare s0 ∗ owns (c : Thread nD τ) scM1 fullShare s1
      ∗ owns (c : Thread nD τ) scM2 fullShare s2) ∗ (∃ r, prngReg c r)) := by
  cases n with
  | zero => exact absurd rfl hz
  | succ n => rfl

/-- The proof data: the arrays as the region finds them; after the body each input's buffer at its block, the result's at
    `outBlk`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.KernelIdeal.Body

end
-- ==== Proof.KI.Runs.lean ====
/- The kernel body run once per phase of the grid. Each lemma: from the buffers the phase reads at named contents, the body
   runs to its end and leaves them as they were, except the one buffer the phase stores into, which holds the phase's
   payload of the loaded values (over the rows the store names, for the two sliced stores). -/
import proofs.«138566_g10230612099342_week1_w1_691_6_alg».proof.Proof.KI.Names
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by
  funext a; match a with | ⟨0, _⟩ => rfl | ⟨1, _⟩ => rfl

/-- One store through the whole-shape rectangle at zero offsets leaves its payload, whatever the buffer held. -/
theorem read_writes_unit_zero {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h
  funext y
  exact View.read_writes_cons_unit_of_mem v f inb w [] y y rfl (fun a => (Nat.zero_add _).symm)

set_option maxHeartbeats 1000000 in
/-- Point 0: x and W1 are loaded, their product stored over the whole first scratch. -/
theorem run1 (c : Dev nD) (i : grid0.Coords)
    (arg1 : Memref sig .tc .vmem S10000x256 .f32) (harg1 : arg1.IsWhole) (arg2 : Memref sig .tc .vmem S200x10000 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S200x10000 .f32) (harg7 : arg7.IsWhole)
    (hc1 : cond1 i) (hc2 : ¬ k0_cond2 i = 1#1) (hc3 : ¬ k0_cond3 i = 1#1) (hc4 : ¬ k0_cond4 i = 1#1)
    (x0 : Vec F S10000x256 .f32) (x2 : Vec F S256x128 .f32)
    (E : Set ℕ) (K : PUnit → sProp 𝕄) :
    iprop(owns (c : Thread nD τ) arg1 fullShare x0 ∗ owns (c : Thread nD τ) arg3 fullShare x2 ∗ (∃ d, owns (c : Thread nD τ) scM0 fullShare d)
        ∗ (iprop(owns (c : Thread nD τ) arg1 fullShare x0 ∗ owns (c : Thread nD τ) arg3 fullShare x2 ∗ owns (c : Thread nD τ) scM0 fullShare (k0_pay1 x0 x2)) -∗ K ⟨⟩))
      ⊢ wp frame (wpE (defs₀ (F := F)) Variants.none c none) E
          (cc0__mega_kernel i arg1 harg1 arg2 harg2 arg3 harg3 arg4 harg4 arg5 harg5 arg6 harg6 arg7 harg7 scM0 hS0 scM1 hS1 scM2 hS2) K := by
  simp only [cc0__mega_kernel_eq_skeleton]; unfold cc0__mega_kernel_skel
  unfold owns
  iintro ⟨⟨%f0, %hf0, H0⟩, ⟨%f2, %hf2, H2⟩, ⟨%d0, %g0, -, G0⟩, Hk⟩
  obtain rfl := harg1.eq_unread hf0; obtain rfl := harg3.eq_unread hf2
  sl_exec (disch := first | exact hc1 | exact hc2 | exact hc3 | exact hc4)
  sl_step
  iapply Hk
  isplitl [H0]
  · iexists _; isplitr; · ipureintro; exact harg1.read_unread _
    iexact H0
  isplitl [H2]
  · iexists _; isplitr; · ipureintro; exact harg3.read_unread _
    iexact H2
  iexists _; isplitr
  swap; · iexact G0
  ipureintro
  rw [read_writes_unit_zero (S := S10000x128) _ _ hz2]
  simp only [View.readAt_eq_ld, hf0, hf2]
  simp only [View.ld_unit_zero (S := S10000x256) hz2, View.ld_unit_zero (S := S256x128) hz2]

set_option maxHeartbeats 1000000 in
/-- Points 1..50: a block of adj, the first scratch, b1 and W2 are loaded; 200 rows of the second scratch are stored. -/
theorem run2 (c : Dev nD) (i : grid0.Coords)
    (arg1 : Memref sig .tc .vmem S10000x256 .f32) (harg1 : arg1.IsWhole) (arg2 : Memref sig .tc .vmem S200x10000 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S200x10000 .f32) (harg7 : arg7.IsWhole)
    (hc1 : ¬cond1 i) (hc2 : k0_cond2 i = 1#1) (hc3 : ¬ k0_cond3 i = 1#1) (hc4 : ¬ k0_cond4 i = 1#1)
    (x1 : Vec F S200x10000 .f32) (x3 : Vec F S1x128 .f32) (x4 : Vec F S128x64 .f32)
    (s0 : Vec F S10000x128 .f32) (s1 : Vec F S10000x64 .f32)
    (E : Set ℕ) (K : PUnit → sProp 𝕄) :
    iprop(owns (c : Thread nD τ) arg2 fullShare x1 ∗ owns (c : Thread nD τ) arg4 fullShare x3 ∗ owns (c : Thread nD τ) arg5 fullShare x4 ∗ owns (c : Thread nD τ) scM0 fullShare s0 ∗ owns (c : Thread nD τ) scM1 fullShare s1
        ∗ (iprop(owns (c : Thread nD τ) arg2 fullShare x1 ∗ owns (c : Thread nD τ) arg4 fullShare x3 ∗ owns (c : Thread nD τ) arg5 fullShare x4 ∗ owns (c : Thread nD τ) scM0 fullShare s0
             ∗ owns (c : Thread nD τ) scM1 fullShare (VS1.read (Elt F) (VS1.writes (Elt F) (hS1.unread s1)
                 [⟨Rect.unit (s := S10000x64) (k0_off1 i) S200x64.size (Facts₀.k0_off1_inb i hc2), k0_pay2 x1 s0 x3 x4⟩]))) -∗ K ⟨⟩))
      ⊢ wp frame (wpE (defs₀ (F := F)) Variants.none c none) E
          (cc0__mega_kernel i arg1 harg1 arg2 harg2 arg3 harg3 arg4 harg4 arg5 harg5 arg6 harg6 arg7 harg7 scM0 hS0 scM1 hS1 scM2 hS2) K := by
  simp only [cc0__mega_kernel_eq_skeleton]; unfold cc0__mega_kernel_skel
  unfold owns
  iintro ⟨⟨%f1, %hf1, H1⟩, ⟨%f3, %hf3, H3⟩, ⟨%f4, %hf4, H4⟩, ⟨%g0, %hg0, G0⟩, ⟨%g1, %hg1, G1⟩, Hk⟩
  obtain rfl := harg2.eq_unread hf1; obtain rfl := harg4.eq_unread hf3; obtain rfl := harg5.eq_unread hf4
  obtain rfl := hS0.eq_unread hg0; obtain rfl := hS1.eq_unread hg1
  sl_exec (disch := first | exact hc1 | exact hc2 | exact hc3 | exact hc4)
  sl_step
  iapply Hk
  isplitl [H1]
  · iexists _; isplitr; · ipureintro; exact harg2.read_unread _
    iexact H1
  isplitl [H3]
  · iexists _; isplitr; · ipureintro; exact harg4.read_unread _
    iexact H3
  isplitl [H4]
  · iexists _; isplitr; · ipureintro; exact harg5.read_unread _
    iexact H4
  isplitl [G0]
  · iexists _; isplitr; · ipureintro; exact hS0.read_unread _
    iexact G0
  iexists _; isplitr
  swap; · iexact G1
  ipureintro
  simp only [View.readAt_eq_ld, hf1, hf3, hf4, hg0]
  simp only [View.ld_unit_zero (S := S200x10000) hz2, View.ld_unit_zero (S := S10000x128) hz2, View.ld_unit_zero (S := S1x128) hz2,
    View.ld_unit_zero (S := S128x64) hz2]

set_option maxHeartbeats 1000000 in
/-- Points 51..100: a block of adj, the second scratch and b2 are loaded; 200 rows of the third scratch are stored. -/
theorem run3 (c : Dev nD) (i : grid0.Coords)
    (arg1 : Memref sig .tc .vmem S10000x256 .f32) (harg1 : arg1.IsWhole) (arg2 : Memref sig .tc .vmem S200x10000 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S200x10000 .f32) (harg7 : arg7.IsWhole)
    (hc1 : ¬cond1 i) (hc2 : ¬ k0_cond2 i = 1#1) (hc3 : k0_cond3 i = 1#1) (hc4 : ¬ k0_cond4 i = 1#1)
    (x1 : Vec F S200x10000 .f32) (x5 : Vec F S1x64 .f32)
    (s1 : Vec F S10000x64 .f32) (s2 : Vec F S10000x64 .f32)
    (E : Set ℕ) (K : PUnit → sProp 𝕄) :
    iprop(owns (c : Thread nD τ) arg2 fullShare x1 ∗ owns (c : Thread nD τ) arg6 fullShare x5 ∗ owns (c : Thread nD τ) scM1 fullShare s1 ∗ owns (c : Thread nD τ) scM2 fullShare s2
        ∗ (iprop(owns (c : Thread nD τ) arg2 fullShare x1 ∗ owns (c : Thread nD τ) arg6 fullShare x5 ∗ owns (c : Thread nD τ) scM1 fullShare s1
             ∗ owns (c : Thread nD τ) scM2 fullShare (VS2.read (Elt F) (VS2.writes (Elt F) (hS2.unread s2)
                 [⟨Rect.unit (s := S10000x64) (k0_off2 i) S200x64.size (Facts₀.k0_off2_inb i hc3), k0_pay3 x1 s1 x5⟩]))) -∗ K ⟨⟩))
      ⊢ wp frame (wpE (defs₀ (F := F)) Variants.none c none) E
          (cc0__mega_kernel i arg1 harg1 arg2 harg2 arg3 harg3 arg4 harg4 arg5 harg5 arg6 harg6 arg7 harg7 scM0 hS0 scM1 hS1 scM2 hS2) K := by
  simp only [cc0__mega_kernel_eq_skeleton]; unfold cc0__mega_kernel_skel
  unfold owns
  iintro ⟨⟨%f1, %hf1, H1⟩, ⟨%f5, %hf5, H5⟩, ⟨%g1, %hg1, G1⟩, ⟨%g2, %hg2, G2⟩, Hk⟩
  obtain rfl := harg2.eq_unread hf1; obtain rfl := harg6.eq_unread hf5
  obtain rfl := hS1.eq_unread hg1; obtain rfl := hS2.eq_unread hg2
  sl_exec (disch := first | exact hc1 | exact hc2 | exact hc3 | exact hc4)
  sl_step
  iapply Hk
  isplitl [H1]
  · iexists _; isplitr; · ipureintro; exact harg2.read_unread _
    iexact H1
  isplitl [H5]
  · iexists _; isplitr; · ipureintro; exact harg6.read_unread _
    iexact H5
  isplitl [G1]
  · iexists _; isplitr; · ipureintro; exact hS1.read_unread _
    iexact G1
  iexists _; isplitr
  swap; · iexact G2
  ipureintro
  simp only [View.readAt_eq_ld, hf1, hf5, hg1]
  simp only [View.ld_unit_zero (S := S200x10000) hz2, View.ld_unit_zero (S := S10000x64) hz2, View.ld_unit_zero (S := S1x64) hz2]

set_option maxHeartbeats 1000000 in
/-- Points 101..150: 200 rows of the third scratch and the whole of it are loaded; the result block is stored whole. -/
theorem run4 (c : Dev nD) (i : grid0.Coords)
    (arg1 : Memref sig .tc .vmem S10000x256 .f32) (harg1 : arg1.IsWhole) (arg2 : Memref sig .tc .vmem S200x10000 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S200x10000 .f32) (harg7 : arg7.IsWhole)
    (hc1 : ¬cond1 i) (hc2 : ¬ k0_cond2 i = 1#1) (hc3 : ¬ k0_cond3 i = 1#1) (hc4 : k0_cond4 i = 1#1)
    (s2 : Vec F S10000x64 .f32)
    (E : Set ℕ) (K : PUnit → sProp 𝕄) :
    iprop(owns (c : Thread nD τ) scM2 fullShare s2 ∗ (∃ d, owns (c : Thread nD τ) arg7 fullShare d)
        ∗ (iprop(owns (c : Thread nD τ) scM2 fullShare s2
             ∗ owns (c : Thread nD τ) arg7 fullShare (k0_pay4 (View.ld s2 (Rect.unit (s := S10000x64) (k0_off3 i) S200x64.size (Facts₀.k0_off3_inb i hc4))) s2)) -∗ K ⟨⟩))
      ⊢ wp frame (wpE (defs₀ (F := F)) Variants.none c none) E
          (cc0__mega_kernel i arg1 harg1 arg2 harg2 arg3 harg3 arg4 harg4 arg5 harg5 arg6 harg6 arg7 harg7 scM0 hS0 scM1 hS1 scM2 hS2) K := by
  simp only [cc0__mega_kernel_eq_skeleton]; unfold cc0__mega_kernel_skel
  unfold owns
  iintro ⟨⟨%g2, %hg2, G2⟩, ⟨%d7, %f7, -, H7⟩, Hk⟩
  obtain rfl := hS2.eq_unread hg2
  sl_exec (disch := first | exact hc1 | exact hc2 | exact hc3 | exact hc4)
  sl_step
  iapply Hk
  isplitl [G2]
  · iexists _; isplitr; · ipureintro; exact hS2.read_unread _
    iexact G2
  iexists _; isplitr
  swap; · iexact H7
  ipureintro
  rw [read_writes_unit_zero (S := S200x10000) _ _ hz2]
  simp only [View.readAt_eq_ld, hg2]
  simp only [View.ld_unit_zero (S := S10000x64) hz2]

end Cert.KernelIdeal.Body

end
-- ==== Proof.KI.Steps.lean ====
/- How the scratch invariant moves from one grid point to the next: each phase's store, read back row by row, is the row
   of the array the invariant names (the rows a sliced store covers are those of its point; the other rows keep what they held). -/
import proofs.«138566_g10230612099342_week1_w1_691_6_alg».proof.Proof.KI.Data
import proofs.«138566_g10230612099342_week1_w1_691_6_alg».proof.Proof.KI.Runs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem pt_eq (t : Fin cfg0.N) (n : ℕ) (h : n < 151) (e : t.val = n) : pt n h = t := Fin.ext e.symm

/-- After point 0 the first scratch is x · W1. -/
theorem inv1 (c : Dev nD) (t : Fin cfg0.N) (h0 : t.val = 0) (s1 s2 : Vec F S10000x64 .f32) :
    Inv m c t.val (k0_pay1 (iblk m c 0 t) (iblk m c 2 t)) s1 s2 := by
  refine ⟨?_, fun y hy => ?_, fun y hy => ?_⟩
  · unfold XW blk0 blk2; rw [pt_eq t 0 (by omega) h0]
  · exfalso; rw [h0] at hy; simp at hy
  · exfalso; rw [h0] at hy; simp at hy

/-- A point of the second phase adds its 200 rows of hw. -/
theorem inv2 (c : Dev nD) (t : Fin cfg0.N) (hc2 : k0_cond2 (grid0.coords t) = 1#1)
    (s0 : Vec F S10000x128 .f32) (s1 s2 : Vec F S10000x64 .f32) (hI : Inv m c (t.val - 1) s0 s1 s2) :
    Inv m c t.val s0 (VS1.read (Elt F) (VS1.writes (Elt F) (hS1.unread s1)
      [⟨Rect.unit (s := S10000x64) (k0_off1 (grid0.coords t)) S200x64.size (Facts₀.k0_off1_inb (grid0.coords t) hc2),
        k0_pay2 (iblk m c 1 t) s0 (iblk m c 3 t) (iblk m c 4 t)⟩])) s2 := by
  obtain ⟨ht1, ht2⟩ := (hcond2 t).mp hc2
  obtain ⟨e0, e1, e2⟩ := hI
  refine ⟨e0, fun y hy => ?_, fun y hy => ?_⟩
  · have hmin : min t.val 50 = t.val := by omega
    rw [hmin] at hy
    by_cases hlt : (y 0).val < 200 * (t.val - 1)
    · rw [View.read_writes_cons_rows_of_not_mem VS1 _ _ _ [] y (hoff1 t hc2) (W := 200) rfl (Or.inl hlt)]
      rw [View.writes_nil, hS1.read_unread]
      exact e1 y (by have : min (t.val - 1) 50 = t.val - 1 := by omega
                     rw [this]; exact hlt)
    · have hr : (y 0).val / 200 + 1 = t.val := by omega
      refine (View.read_writes_cons_rows_of_mem VS1 (hS1.unread s1) (Facts₀.k0_off1_inb (grid0.coords t) hc2)
        (k0_pay2 (iblk m c 1 t) s0 (iblk m c 3 t) (iblk m c 4 t)) [] y
        (ix2 (⟨(y 0).val % 200, Nat.mod_lt _ (by omega)⟩ : Fin 200) (⟨(y 1).val, idx2_lt1 y⟩ : Fin 64)) (hoff1 t hc2)
        (by show (y 0).val = 200 * (t.val - 1) + (y 0).val % 200; omega) rfl).trans ?_
      unfold HW blk1 blk3 blk4
      rw [pt_eq t _ _ hr.symm, e0]
  · exact e2 y (by have : min (t.val - 1) 100 - 50 = 0 := by omega
                   have h' : min t.val 100 - 50 = 0 := by omega
                   rw [h'] at hy; simp at hy)

/-- A point of the third phase adds its 200 rows of the normalised embedding. -/
theorem inv3 (c : Dev nD) (t : Fin cfg0.N) (hc3 : k0_cond3 (grid0.coords t) = 1#1)
    (s0 : Vec F S10000x128 .f32) (s1 s2 : Vec F S10000x64 .f32) (hI : Inv m c (t.val - 1) s0 s1 s2) :
    Inv m c t.val s0 s1 (VS2.read (Elt F) (VS2.writes (Elt F) (hS2.unread s2)
      [⟨Rect.unit (s := S10000x64) (k0_off2 (grid0.coords t)) S200x64.size (Facts₀.k0_off2_inb (grid0.coords t) hc3),
        k0_pay3 (iblk m c 1 t) s1 (iblk m c 5 t)⟩])) := by
  obtain ⟨ht1, ht2⟩ := (hcond3 t).mp hc3
  obtain ⟨e0, e1, e2⟩ := hI
  have hs1 : s1 = HW m c := funext fun y => e1 y (by
    have : min (t.val - 1) 50 = 50 := by omega
    rw [this]; have := idx2_lt0 y; omega)
  refine ⟨e0, fun y hy => e1 y (by
    have h1 : min (t.val - 1) 50 = 50 := by omega
    have h2 : min t.val 50 = 50 := by omega
    rw [h1]; rw [h2] at hy; exact hy), fun y hy => ?_⟩
  have hmin : min t.val 100 - 50 = t.val - 50 := by omega
  rw [hmin] at hy
  by_cases hlt : (y 0).val < 200 * (t.val - 51)
  · rw [View.read_writes_cons_rows_of_not_mem VS2 _ _ _ [] y (hoff2 t hc3) (W := 200) rfl (Or.inl hlt)]
    rw [View.writes_nil, hS2.read_unread]
    exact e2 y (by have : min (t.val - 1) 100 - 50 = t.val - 51 := by omega
                   rw [this]; exact hlt)
  · have hr : (y 0).val / 200 + 51 = t.val := by omega
    refine (View.read_writes_cons_rows_of_mem VS2 (hS2.unread s2) (Facts₀.k0_off2_inb (grid0.coords t) hc3)
      (k0_pay3 (iblk m c 1 t) s1 (iblk m c 5 t)) [] y
      (ix2 (⟨(y 0).val % 200, Nat.mod_lt _ (by omega)⟩ : Fin 200) (⟨(y 1).val, idx2_lt1 y⟩ : Fin 64)) (hoff2 t hc3)
      (by show (y 0).val = 200 * (t.val - 51) + (y 0).val % 200; omega) rfl).trans ?_
    unfold Z blk1 blk5
    rw [pt_eq t _ _ hr.symm, hs1]

/-- A point of the last phase leaves the scratch as it found it, -/
theorem inv4 (c : Dev nD) (t : Fin cfg0.N) (hc4 : k0_cond4 (grid0.coords t) = 1#1)
    (s0 : Vec F S10000x128 .f32) (s1 s2 : Vec F S10000x64 .f32) (hI : Inv m c (t.val - 1) s0 s1 s2) :
    Inv m c t.val s0 s1 s2 := by
  have ht := (hcond4 t).mp hc4
  obtain ⟨e0, e1, e2⟩ := hI
  refine ⟨e0, fun y hy => e1 y (by
    have h1 : min (t.val - 1) 50 = 50 := by omega
    have h2 : min t.val 50 = 50 := by omega
    rw [h1]; rw [h2] at hy; exact hy), fun y hy => e2 y (by
    have h1 : min (t.val - 1) 100 - 50 = 50 := by omega
    have h2 : min t.val 100 - 50 = 50 := by omega
    rw [h1]; rw [h2] at hy; exact hy)⟩

/-- and stores the decoder's block of the embedding the third scratch now holds whole. -/
theorem out4 (c : Dev nD) (t : Fin cfg0.N) (hc4 : k0_cond4 (grid0.coords t) = 1#1)
    (s0 : Vec F S10000x128 .f32) (s1 s2 : Vec F S10000x64 .f32) (hI : Inv m c (t.val - 1) s0 s1 s2) :
    k0_pay4 (View.ld s2 (Rect.unit (s := S10000x64) (k0_off3 (grid0.coords t)) S200x64.size (Facts₀.k0_off3_inb (grid0.coords t) hc4))) s2
      = outBlk m c t := by
  have ht := (hcond4 t).mp hc4
  obtain ⟨e0, e1, e2⟩ := hI
  have hs2 : s2 = Z m c := funext fun y => e2 y (by
    have : min (t.val - 1) 100 - 50 = 50 := by omega
    rw [this]; have := idx2_lt0 y; omega)
  rw [outBlk_pos m c t hc4, hs2]; rfl

end Cert.KernelIdeal.Body

end
-- ==== Proof.KI.Oblig.lean ====
/- The body obligation of the pipeline library, at every grid point: which phase the point is in is decided by the closed forms of
   the branch conditions; the phase's run applies; the scratch invariant moves by the step lemmas. -/
import proofs.«138566_g10230612099342_week1_w1_691_6_alg».proof.Proof.KI.Steps

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from rfl]
  have hN : t.val < 151 := lt_of_lt_of_eq t.isLt N_0
  rw [show (dats m 0 c).leavesExact 0 t = owns (c : Thread nD τ) (ms0 t) fullShare (iblk m c 0 t) from by
    unfold Dat.leavesExact; rw [live0 t, after0]]
  rw [show (dats m 0 c).leavesExact 1 t = owns (c : Thread nD τ) (ms1 t) fullShare (iblk m c 1 t) from by
    unfold Dat.leavesExact; rw [live1 t, after1]]
  rw [show (dats m 0 c).leavesExact 2 t = owns (c : Thread nD τ) (ms2 t) fullShare (iblk m c 2 t) from by
    unfold Dat.leavesExact; rw [live2 t, after2]]
  rw [show (dats m 0 c).leavesExact 3 t = owns (c : Thread nD τ) (ms3 t) fullShare (iblk m c 3 t) from by
    unfold Dat.leavesExact; rw [live3 t, after3]]
  rw [show (dats m 0 c).leavesExact 4 t = owns (c : Thread nD τ) (ms4 t) fullShare (iblk m c 4 t) from by
    unfold Dat.leavesExact; rw [live4 t, after4]]
  rw [show (dats m 0 c).leavesExact 5 t = owns (c : Thread nD τ) (ms5 t) fullShare (iblk m c 5 t) from by
    unfold Dat.leavesExact; rw [live5 t, after5]]
  by_cases h0 : t.val = 0
  · have hc1 : cond1 (grid0.coords t) := (hcond1 t).mpr h0
    have hc2 : ¬ k0_cond2 (grid0.coords t) = 1#1 := fun h => by have := (hcond2 t).mp h; omega
    have hc3 : ¬ k0_cond3 (grid0.coords t) = 1#1 := fun h => by have := (hcond3 t).mp h; omega
    have hc4 : ¬ k0_cond4 (grid0.coords t) = 1#1 := fun h => by have := (hcond4 t).mp h; omega
    rw [Dat.leavesExact_idle (dats m 0 c) 6 t (idle6 t hc4) (noFlush6 t hc4)]
    rw [show PhiS m c t.val = Pipeline.ΦA spec0 c from by rw [h0]; rfl, PhiA0_eq]
    iintro ⟨⟨⟨⟨%d0, G0⟩, ⟨%d1, G1⟩, ⟨%d2, G2⟩⟩, Hg⟩, Ho, ⟨%e0, H0⟩, ⟨%e1, H1⟩, ⟨%e2, H2⟩, ⟨%e3, H3⟩, ⟨%e4, H4⟩, ⟨%e5, H5⟩, ⟨%e6, H6⟩⟩
    iapply (run1 c (grid0.coords t) _ _ _ _ _ _ _ _ _ _ _ _ _ _ hc1 hc2 hc3 hc4 (iblk m c 0 t) (iblk m c 2 t) Set.univ _)
    isplitl [H0]; · iexact H0
    isplitl [H2]; · iexact H2
    isplitl [G0]; · iexists _; iexact G0
    iintro ⟨H0, H2, G0⟩
    isplitl [G0 G1 G2 Hg]
    · isplitl [G0 G1 G2]
      · iexists _; iexists d1; iexists d2
        isplitr; · ipureintro; exact inv1 m c t h0 d1 d2
        isplitl [G0]; · iexact G0
        isplitl [G1]; · iexact G1
        iexact G2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [PhiS_pos m c t.val h0]
    by_cases h2 : t.val < 51
    · have hc1 : ¬ cond1 (grid0.coords t) := fun h => h0 ((hcond1 t).mp h)
      have hc2 : k0_cond2 (grid0.coords t) = 1#1 := (hcond2 t).mpr ⟨by omega, h2⟩
      have hc3 : ¬ k0_cond3 (grid0.coords t) = 1#1 := fun h => by have := (hcond3 t).mp h; omega
      have hc4 : ¬ k0_cond4 (grid0.coords t) = 1#1 := fun h => by have := (hcond4 t).mp h; omega
      rw [Dat.leavesExact_idle (dats m 0 c) 6 t (idle6 t hc4) (noFlush6 t hc4)]
      iintro ⟨⟨⟨%s0, %s1, %s2, %hI, G0, G1, G2⟩, Hg⟩, Ho, ⟨%e0, H0⟩, ⟨%e1, H1⟩, ⟨%e2, H2⟩, ⟨%e3, H3⟩, ⟨%e4, H4⟩, ⟨%e5, H5⟩, ⟨%e6, H6⟩⟩
      iapply (run2 c (grid0.coords t) _ _ _ _ _ _ _ _ _ _ _ _ _ _ hc1 hc2 hc3 hc4 (iblk m c 1 t) (iblk m c 3 t) (iblk m c 4 t) s0 s1 Set.univ _)
      isplitl [H1]; · iexact H1
      isplitl [H3]; · iexact H3
      isplitl [H4]; · iexact H4
      isplitl [G0]; · iexact G0
      isplitl [G1]; · iexact G1
      iintro ⟨H1, H3, H4, G0, G1⟩
      isplitl [G0 G1 G2 Hg]
      · isplitl [G0 G1 G2]
        · iexists s0; iexists _; iexists s2
          isplitr; · ipureintro; exact inv2 m c t hc2 s0 s1 s2 hI
          isplitl [G0]; · iexact G0
          isplitl [G1]; · iexact G1
          iexact G2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · by_cases h3 : t.val < 101
      · have hc1 : ¬ cond1 (grid0.coords t) := fun h => h0 ((hcond1 t).mp h)
        have hc2 : ¬ k0_cond2 (grid0.coords t) = 1#1 := fun h => by have := (hcond2 t).mp h; omega
        have hc3 : k0_cond3 (grid0.coords t) = 1#1 := (hcond3 t).mpr ⟨by omega, h3⟩
        have hc4 : ¬ k0_cond4 (grid0.coords t) = 1#1 := fun h => by have := (hcond4 t).mp h; omega
        rw [Dat.leavesExact_idle (dats m 0 c) 6 t (idle6 t hc4) (noFlush6 t hc4)]
        iintro ⟨⟨⟨%s0, %s1, %s2, %hI, G0, G1, G2⟩, Hg⟩, Ho, ⟨%e0, H0⟩, ⟨%e1, H1⟩, ⟨%e2, H2⟩, ⟨%e3, H3⟩, ⟨%e4, H4⟩, ⟨%e5, H5⟩, ⟨%e6, H6⟩⟩
        iapply (run3 c (grid0.coords t) _ _ _ _ _ _ _ _ _ _ _ _ _ _ hc1 hc2 hc3 hc4 (iblk m c 1 t) (iblk m c 5 t) s1 s2 Set.univ _)
        isplitl [H1]; · iexact H1
        isplitl [H5]; · iexact H5
        isplitl [G1]; · iexact G1
        isplitl [G2]; · iexact G2
        iintro ⟨H1, H5, G1, G2⟩
        isplitl [G0 G1 G2 Hg]
        · isplitl [G0 G1 G2]
          · iexists s0; iexists s1; iexists _
            isplitr; · ipureintro; exact inv3 m c t hc3 s0 s1 s2 hI
            isplitl [G0]; · iexact G0
            isplitl [G1]; · iexact G1
            iexact G2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · have hc1 : ¬ cond1 (grid0.coords t) := fun h => h0 ((hcond1 t).mp h)
        have hc2 : ¬ k0_cond2 (grid0.coords t) = 1#1 := fun h => by have := (hcond2 t).mp h; omega
        have hc3 : ¬ k0_cond3 (grid0.coords t) = 1#1 := fun h => by have := (hcond3 t).mp h; omega
        have hc4 : k0_cond4 (grid0.coords t) = 1#1 := (hcond4 t).mpr (by omega)
        rw [show (dats m 0 c).leavesExact 6 t = owns (c : Thread nD τ) (ms6 t) fullShare (outBlk m c t) from by
          unfold Dat.leavesExact; rw [live6 t hc4, after6]]
        iintro ⟨⟨⟨%s0, %s1, %s2, %hI, G0, G1, G2⟩, Hg⟩, Ho, ⟨%e0, H0⟩, ⟨%e1, H1⟩, ⟨%e2, H2⟩, ⟨%e3, H3⟩, ⟨%e4, H4⟩, ⟨%e5, H5⟩, ⟨%e6, H6⟩⟩
        iapply (run4 c (grid0.coords t) _ _ _ _ _ _ _ _ _ _ _ _ _ _ hc1 hc2 hc3 hc4 s2 Set.univ _)
        isplitl [G2]; · iexact G2
        isplitl [H6]; · iexists _; iexact H6
        iintro ⟨G2, H6⟩
        isplitl [G0 G1 G2 Hg]
        · isplitl [G0 G1 G2]
          · iexists s0; iexists s1; iexists s2
            isplitr; · ipureintro; exact inv4 m c t hc4 s0 s1 s2 hI
            isplitl [G0]; · iexact G0
            isplitl [G1]; · iexact G1
            iexact G2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        rw [← out4 m c t hc4 s0 s1 s2 hI]
        iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero]

/-- After the last point the invariant gives the class's back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 151 := N_0; omega), PhiA0_eq]
  iintro ⟨⟨%s0, %s1, %s2, %hI, G0, G1, G2⟩, Hg⟩
  isplitl [G0 G1 G2]
  · isplitl [G0]; · iexists _; iexact G0
    isplitl [G1]; · iexists _; iexact G1
    iexists _; iexact G2
  iexact Hg

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Spec.lean ====
/- The function both programs compute, entry by entry, on the extended reals.
   A two-layer graph convolution followed by an inner-product decoder, over a dense adjacency matrix:
     xw   = x · W1                                   (10000 × 128)
     hid  = max (adj · xw + b1) 0                    (10000 × 128)
     hw   = hid · W2                                 (10000 × 64)
     pre  = adj · hw + b2                            (10000 × 64)
     z    = pre / (sqrt (row sum of pre²) + ε)       (10000 × 64), each row divided by its Euclidean length plus ε
     out  = logistic (z · zᵀ)                        (10000 × 10000)
   Every product is the textbook sum over the contracted coordinate; nothing is reassociated beyond the order of a finite sum,
   so no finiteness of the inputs is used anywhere. -/
import Idealize.ShloMosaic.PureOps.Ideal
import Idealize.ShloMosaic.Lib.ValueIdx

noncomputable section

open scoped BigOperators

namespace Cert.Spec

open Idealize.ShloMosaic Idealize.ShloMosaic.ValueIdx

/-- A matrix of extended reals. -/
abbrev Mat (a b : Nat) : Type := (⟨2, ![a, b]⟩ : Shape).Idx → EReal
/-- A vector of extended reals. -/
abbrev Row (a : Nat) : Type := (⟨1, ![a]⟩ : Shape).Idx → EReal

/-- The small constant added to a row's length before dividing: the single-precision pattern both programs carry. -/
def eps : EReal := Ideal.ofBits .f32 0x2B8CBCCC#32

variable (x : Mat 10000 256) (adj : Mat 10000 10000) (W1 : Mat 256 128) (b1 : Row 128) (W2 : Mat 128 64) (b2 : Row 64)

/-- x · W1. -/
def xw (r : Fin 10000) (h : Fin 128) : EReal := ∑ k : Fin 256, x (ix2 r k) * W1 (ix2 k h)
/-- The hidden layer: max (adj · (x · W1) + b1) 0. -/
def hid (r : Fin 10000) (h : Fin 128) : EReal := max ((∑ k : Fin 10000, adj (ix2 r k) * xw x W1 k h) + b1 (ix1 h)) 0
/-- hid · W2. -/
def hw (r : Fin 10000) (d : Fin 64) : EReal := ∑ h : Fin 128, hid x adj W1 b1 r h * W2 (ix2 h d)
/-- The second layer before normalisation: adj · (hid · W2) + b2. -/
def pre (r : Fin 10000) (d : Fin 64) : EReal := (∑ k : Fin 10000, adj (ix2 r k) * hw x adj W1 b1 W2 k d) + b2 (ix1 d)
/-- A row's Euclidean length. -/
def nrm (r : Fin 10000) : EReal := Ideal.sqrt (∑ d : Fin 64, pre x adj W1 b1 W2 b2 r d * pre x adj W1 b1 W2 b2 r d)
/-- The normalised embedding. -/
def z (r : Fin 10000) (d : Fin 64) : EReal := Ideal.div (pre x adj W1 b1 W2 b2 r d) (nrm x adj W1 b1 W2 b2 r + eps)
/-- The decoder: logistic of the inner product of two rows of the embedding. -/
def out (r s : Fin 10000) : EReal := Ideal.logistic (∑ d : Fin 64, z x adj W1 b1 W2 b2 r d * z x adj W1 b1 W2 b2 s d)

/-- The result as one array. -/
def outArr : Mat 10000 10000 := fun j =>
  out x adj W1 b1 W2 b2 ⟨(j 0).val, idx2_lt0 j⟩ ⟨(j 1).val, idx2_lt1 j⟩

/-- The result array at the index with coordinates (r, s). -/
theorem outArr_ix2 (r s : Fin 10000) : outArr x adj W1 b1 W2 b2 (ix2 r s) = out x adj W1 b1 W2 b2 r s := rfl

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibRowDot.lean ====
/-
  A matrix product whose right operand is contracted on its last axis, read at an index on the extended reals.

  For an `M×K` by `N×K` contraction (left axis 1 against right axis 1, no batch axis) the element at `(r, c)` of
  a matrix-unit product into a zero accumulator is the sum over `k : Fin K` of `l (r, k) * w (c, k)`: a row of the
  left operand against a ROW of the right operand. The contraction's one-axis index type is re-indexed by its
  single coordinate.
-/
import Idealize.ShloMosaic.PureOps.Ideal.Laws
import Idealize.ShloMosaic.Lib.ValueIdx

noncomputable section

namespace Cert.RowDot

open Idealize.ShloMosaic Idealize.ShloMosaic.ValueIdx

/-- The contraction sum of an `M×K` by `N×K` product (right operand contracted on its last axis) at output
    index `j`, over `Fin K`. -/
theorem contr_sum (M K N : Nat) (l : (⟨2, ![M, K]⟩ : Shape).Idx → EReal) (w : (⟨2, ![N, K]⟩ : Shape).Idx → EReal)
    (j : (⟨2, ![M, N]⟩ : Shape).Idx) :
    (∑ q : (DotDims.transposedRhs M K N).contr.Idx,
        l ((DotDims.transposedRhs M K N).lhsIdx j q) * w ((DotDims.transposedRhs M K N).rhsIdx j q))
      = ∑ k : Fin K, l (ix2 (j 0) k) * w (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k)
      = ix2 (j 0) k :=
    funext fun a => Fin.ext (by
      match a with
      | ⟨0, _⟩ => rfl
      | ⟨1, _⟩ => exact hk)
  have er : (DotDims.transposedRhs M K N).rhsIdx j ((contrEquiv1 (DotDims.transposedRhs M K N) K rfl rfl).symm k)
      = ix2 (j 1) k :=
    funext fun a => Fin.ext (by
      match a with
      | ⟨0, _⟩ => rfl
      | ⟨1, _⟩ => exact hk)
  rw [el, er]
  rfl

/-- A matrix-unit product of a left operand against the rows of the right operand, into the zero accumulator,
    at an index. -/
theorem matmul_zero_apply (M K N : Nat) {φ₁ φ₂ : FTy} (prec : Option ContractPrecision)
    (l : FVec Ideal (⟨2, ![M, K]⟩ : Shape) φ₁) (w : FVec Ideal (⟨2, ![N, K]⟩ : Shape) φ₂) (j : (⟨2, ![M, N]⟩ : Shape).Idx) :
    FloatOps.matmul (DotDims.transposedRhs M K N) prec l w (constant (⟨2, ![M, N]⟩ : Shape) .f32 0x00000000#32) j
      = ∑ k : Fin K, l (ix2 (j 0) k) * w (ix2 (j 1) k) :=
  (Ideal.matmul_constant_zero_apply (DotDims.transposedRhs M K N) prec l w j).trans (contr_sum M K N l w j)

end Cert.RowDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.Pay.lean ====
/- The four values the kernel body stores, each read at one entry on the extended reals: every matrix product is the plain sum
   over the contracted coordinate, the row reduction a plain sum over the row, the broadcasts the entry of the row they repeat. -/
import proofs.«138566_g10230612099342_week1_w1_691_6_alg».proof.Proof.Gen.KernelIdeal.Skeleton
import proofs.«138566_g10230612099342_week1_w1_691_6_alg».proof.Proof.Spec
import Idealize.ShloMosaic.PureOps.Ideal.Laws
import Idealize.ShloMosaic.Lib.ValueIdx
import Idealize.ShloMosaic.Lib.ValueLayout
import Idealize.ShloMosaic.Lib.Pipeline.Value
import proofs.«138566_g10230612099342_week1_w1_691_6_alg».proof.Proof.LibPlainDot
import proofs.«138566_g10230612099342_week1_w1_691_6_alg».proof.Proof.LibRowDot
import proofs.«138566_g10230612099342_week1_w1_691_6_alg».proof.Proof.LibKeepdims

noncomputable section

open scoped BigOperators

namespace Cert.KernelIdeal.Pay

open Idealize.ShloMosaic Idealize.ShloMosaic.ValueIdx Cert.KernelIdeal Cert.KernelIdeal.Gen

/-- A block of rows times a matrix, plus a bias row repeated over the block, at (p, c):
    the sum over the contracted coordinate plus the bias entry of column c. -/
theorem pP_affine_apply (M K N : ℕ) (A : FVec Ideal (⟨2, ![M, K]⟩ : Shape) .f32) (Y : FVec Ideal (⟨2, ![K, N]⟩ : Shape) .f32)
    (B : FVec Ideal (⟨2, ![1, N]⟩ : Shape) .f32)
    (hc : (⟨2, ![1, N]⟩ : Shape).ShapeCasts ⟨2, ![1, N]⟩) (hb : (⟨2, ![1, N]⟩ : Shape).Broadcasts ⟨2, ![M, N]⟩)
    (p : Fin M) (c : Fin N) :
    addf (matmul (DotDims.plain M K N) none A Y (constant (⟨2, ![M, N]⟩ : Shape) .f32 0x00000000#32))
        (broadcastTo (⟨2, ![M, N]⟩ : Shape) (shapeCast (⟨2, ![1, N]⟩ : Shape) B hc) hb) (ix2 p c)
      = (∑ k : Fin K, A (ix2 p k) * Y (ix2 k c)) + B (ix2 (0 : Fin 1) c) :=
  congrArg₂ (· + ·) (Cert.PlainDot.matmul_zero_apply M K N none A Y (ix2 p c))
    ((broadcastTo_1b_ab_apply _ hb p c).trans (congrFun (shapeCast_self B hc) _))

/-- Point 0's store: x · W1 at (r, h). -/
theorem pay1_apply (X : Vec Ideal S10000x256 .f32) (W : Vec Ideal S256x128 .f32) (r : Fin 10000) (h : Fin 128) :
    k0_pay1 (F := Ideal) X W (ix2 r h) = ∑ k : Fin 256, X (ix2 r k) * W (ix2 k h) := by
  unfold k0_pay1
  -- the cast to the same shape is the identity; what is left is the plain product into a zero accumulator
  refine (congrFun (shapeCast_self _ _) (ix2 r h)).trans ?_
  exact Cert.PlainDot.matmul_zero_apply 10000 256 128 none X W (ix2 r h)

/-- A second-phase store at local row p, column d: the hidden layer's row times W2. -/
theorem pay2_apply (A : Vec Ideal S200x10000 .f32) (XW : Vec Ideal S10000x128 .f32) (B1 : Vec Ideal S1x128 .f32)
    (W2 : Vec Ideal S128x64 .f32) (p : Fin 200) (d : Fin 64) :
    k0_pay2 (F := Ideal) A XW B1 W2 (ix2 p d)
      = ∑ h : Fin 128, max ((∑ k : Fin 10000, A (ix2 p k) * XW (ix2 k h)) + B1 (ix2 (0 : Fin 1) h)) 0 * W2 (ix2 h d) := by
  unfold k0_pay2
  refine (congrFun (shapeCast_self _ _) (ix2 p d)).trans ?_
  -- the outer product, over the hidden coordinate h
  refine (Cert.PlainDot.matmul_zero_apply 200 128 64 none _ W2 (ix2 p d)).trans ?_
  refine Finset.sum_congr rfl fun h _ => ?_
  refine congrArg (· * W2 (ix2 h d)) ?_
  -- the hidden entry: the maximum of (block · xw + bias) and the zero word, which encodes 0
  exact congrArg₂ max (pP_affine_apply 200 10000 128 A XW B1 _ _ p h) Ideal.ofBits_zero_f32

/-- A third-phase store at local row p, column d: the row of adj · hw + b2 divided by its length plus ε. -/
theorem pay3_apply (A : Vec Ideal S200x10000 .f32) (HW : Vec Ideal S10000x64 .f32) (B2 : Vec Ideal S1x64 .f32)
    (p : Fin 200) (d : Fin 64) :
    k0_pay3 (F := Ideal) A HW B2 (ix2 p d)
      = Ideal.div ((∑ k : Fin 10000, A (ix2 p k) * HW (ix2 k d)) + B2 (ix2 (0 : Fin 1) d))
          (Ideal.sqrt (∑ d' : Fin 64, ((∑ k : Fin 10000, A (ix2 p k) * HW (ix2 k d')) + B2 (ix2 (0 : Fin 1) d'))
              * ((∑ k : Fin 10000, A (ix2 p k) * HW (ix2 k d')) + B2 (ix2 (0 : Fin 1) d'))) + Cert.Spec.eps) := by
  unfold k0_pay3
  refine (congrFun (shapeCast_self _ _) (ix2 p d)).trans ?_
  -- numerator: the entry of block · hw + bias; denominator: read through the column broadcast
  refine congrArg₂ Ideal.div (pP_affine_apply 200 10000 64 A HW B2 _ _ p d) ?_
  refine (Cert.Keepdims.broadcastTo_a1_ab_apply _ _ p d).trans ?_
  -- square root of the row sum, plus the constant ε
  refine congrArg₂ (· + ·) (congrArg Ideal.sqrt ?_) rfl
  -- the row sum kept as a column: the entry of the rank-1 sum at p, which is the sum over the row
  refine (Cert.Keepdims.shapeCast_a_a1_apply _ _ p 0).trans ?_
  refine (Cert.Keepdims.sum_axis1_apply _ _ _ _ _ p).trans ?_
  refine Finset.sum_congr rfl fun c _ => ?_
  -- each summand is the square of the same entry
  exact congrArg₂ (· * ·) (pP_affine_apply 200 10000 64 A HW B2 _ _ p c) (pP_affine_apply 200 10000 64 A HW B2 _ _ p c)

/-- A fourth-phase store at local row p, column s: logistic of the inner product of two embedding rows. -/
theorem pay4_apply (Zb : Vec Ideal S200x64 .f32) (Z : Vec Ideal S10000x64 .f32) (p : Fin 200) (s : Fin 10000) :
    k0_pay4 (F := Ideal) Zb Z (ix2 p s) = Ideal.logistic (∑ d : Fin 64, Zb (ix2 p d) * Z (ix2 s d)) := by
  unfold k0_pay4
  -- logistic is taken entry by entry; the product contracts a row of the left operand against a row of the right one
  exact congrArg Ideal.logistic (Cert.RowDot.matmul_zero_apply 200 64 10000 none Zb Z (ix2 p s))

end Cert.KernelIdeal.Pay

end
-- ==== Proof.KI.ArrBlocks.lean ====
/- The blocks of the windows cut straight from an argument array, entry by entry. A block's entry sits in its array, on each
   axis, at the block index times the block's extent plus the entry's own coordinate. The windows over x, W1 and W2 take the
   whole array as their one block (block index zero), so the block is the array; the window over the adjacency matrix takes
   200 rows, and its block index on the row axis at the points of the second and of the third phase counts the row blocks
   from zero. -/
import proofs.«138566_g10230612099342_week1_w1_691_6_alg».proof.Proof.KI.Data
import Idealize.ShloMosaic.Lib.Pipeline.Value

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Body

variable (m : (ℓ : Loc nD τ sig) → Buf (Elt Ideal) ℓ)

/-- A window whose block is its whole array reads, at every grid point, the array as launched: its block index is zero on
    both axes, so an entry's position in the array is its position in the block. Window 0 carries x. -/
theorem pA_blk0_read (c : Dev nD) (t : Fin cfg0.N) (x : S10000x256.Idx) :
    (blk0 m c t : Vec Ideal S10000x256 .f32) x = (m ((c.tc : Thread nD τ).loc main_arg0) : S10000x256.Idx → EReal) x := by
  unfold blk0 iblk
  rw [View.read_apply]
  show V m c main_arg0 _ = _
  rw [V_main_arg0]
  congr 1
  funext a
  apply Fin.ext
  match a with
  | ⟨0, _⟩ => show win0_0.index t 0 * 10000 + 1 * (x 0).val = (x 0).val; rw [show win0_0.index t 0 = 0 from rfl]; omega
  | ⟨1, _⟩ => show win0_0.index t 1 * 256 + 1 * (x 1).val = (x 1).val; rw [show win0_0.index t 1 = 0 from rfl]; omega

/-- Window 2 carries W1 whole. -/
theorem pA_blk2_read (c : Dev nD) (t : Fin cfg0.N) (x : S256x128.Idx) :
    (blk2 m c t : Vec Ideal S256x128 .f32) x = (m ((c.tc : Thread nD τ).loc main_arg2) : S256x128.Idx → EReal) x := by
  unfold blk2 iblk
  rw [View.read_apply]
  show V m c main_arg2 _ = _
  rw [V_main_arg2]
  congr 1
  funext a
  apply Fin.ext
  match a with
  | ⟨0, _⟩ => show win0_2.index t 0 * 256 + 1 * (x 0).val = (x 0).val; rw [show win0_2.index t 0 = 0 from rfl]; omega
  | ⟨1, _⟩ => show win0_2.index t 1 * 128 + 1 * (x 1).val = (x 1).val; rw [show win0_2.index t 1 = 0 from rfl]; omega

/-- Window 4 carries W2 whole. -/
theorem pA_blk4_read (c : Dev nD) (t : Fin cfg0.N) (x : S128x64.Idx) :
    (blk4 m c t : Vec Ideal S128x64 .f32) x = (m ((c.tc : Thread nD τ).loc main_arg4) : S128x64.Idx → EReal) x := by
  unfold blk4 iblk
  rw [View.read_apply]
  show V m c main_arg4 _ = _
  rw [V_main_arg4]
  congr 1
  funext a
  apply Fin.ext
  match a with
  | ⟨0, _⟩ => show win0_4.index t 0 * 128 + 1 * (x 0).val = (x 0).val; rw [show win0_4.index t 0 = 0 from rfl]; omega
  | ⟨1, _⟩ => show win0_4.index t 1 * 64 + 1 * (x 1).val = (x 1).val; rw [show win0_4.index t 1 = 0 from rfl]; omega

/-- Window 1 carries 200 rows of the adjacency matrix: at a point whose block index on the row axis is b, entry (p, k) of
    the block is entry (200·b + p, k) of the matrix. -/
theorem pA_blk1_read (c : Dev nD) (t : Fin cfg0.N) (b : Nat) (hb : win0_1.index t 0 = b) (x : S200x10000.Idx) (k : S10000x10000.Idx)
    (hk0 : (k 0).val = 200 * b + (x 0).val) (hk1 : (k 1).val = (x 1).val) :
    (blk1 m c t : Vec Ideal S200x10000 .f32) x = (m ((c.tc : Thread nD τ).loc main_arg1) : S10000x10000.Idx → EReal) k := by
  unfold blk1 iblk
  rw [View.read_apply]
  show V m c main_arg1 _ = _
  rw [V_main_arg1]
  congr 1
  funext a
  apply Fin.ext
  match a with
  | ⟨0, _⟩ => show win0_1.index t 0 * 200 + 1 * (x 0).val = (k 0).val; rw [hb, hk0]; omega
  | ⟨1, _⟩ => show win0_1.index t 1 * 10000 + 1 * (x 1).val = (k 1).val; rw [show win0_1.index t 1 = 0 from rfl, hk1]; omega

/-- The adjacency window's row-block index at point b + 1 of the second phase is b. -/
theorem pA_idx1_lo (b : Nat) (hb : b < 50) : win0_1.index (pt (b + 1) (by omega)) 0 = b := by
  show cc0_transform_1 (grid0.coords (pt (b + 1) (by omega))) 0 = b
  rw [idx1]
  show (if b + 1 < 51 then b + 1 - 1 else if b + 1 < 101 then b + 1 - 51 else 49) = b
  rw [if_pos (by omega)]; omega

/-- The adjacency window's row-block index at point b + 51 of the third phase is b again. -/
theorem pA_idx1_hi (b : Nat) (hb : b < 50) : win0_1.index (pt (b + 51) (by omega)) 0 = b := by
  show cc0_transform_1 (grid0.coords (pt (b + 51) (by omega))) 0 = b
  rw [idx1]
  show (if b + 51 < 51 then b + 51 - 1 else if b + 51 < 101 then b + 51 - 51 else 49) = b
  rw [if_neg (by omega), if_pos (by omega)]; omega

end Cert.KernelIdeal.KValue

end
-- ==== Proof.KI.ArrRows.lean ====
/- The blocks of the two windows over the bias vectors. The host lays each bias out as a matrix of one row before the region
   is entered, and the window takes that one-row matrix whole; so the block's entry (0, j) is the vector's entry j: both have
   row-major position j. -/
import proofs.«138566_g10230612099342_week1_w1_691_6_alg».proof.Proof.KI.Data
import Idealize.ShloMosaic.Lib.Pipeline.Value

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Body

variable (m : (ℓ : Loc nD τ sig) → Buf (Elt Ideal) ℓ)
/-- The array window 3 is cut from is b1 laid out as one row: the host reshapes it before the region is entered. -/
theorem pA_V_v0 (c : Dev nD) :
    (V m c main_v0 : S1x128.Idx → EReal)
      = shapeCast S1x128 (m ((c.tc : Thread nD τ).loc main_arg3) : S128.Idx → EReal) Facts₀.shapeCasts_S128_S1x128 := by
  dsimp only [Gen.V, Gen.hostOps0]; after_results; rfl

/-- Likewise window 5's array is b2 as one row. -/
theorem pA_V_v1 (c : Dev nD) :
    (V m c main_v1 : S1x64.Idx → EReal)
      = shapeCast S1x64 (m ((c.tc : Thread nD τ).loc main_arg5) : S64.Idx → EReal) Facts₀.shapeCasts_S64_S1x64 := by
  dsimp only [Gen.V, Gen.hostOps0]; after_results; rfl

/-- Window 3's block, at entry (0, h), is b1 at h: the row-major position of (0, h) in a one-row matrix is h. -/
theorem pA_blk3_read (c : Dev nD) (t : Fin cfg0.N) (h : Fin 128) :
    (blk3 m c t : Vec Ideal S1x128 .f32) (ix2 (0 : Fin 1) h) = (m ((c.tc : Thread nD τ).loc main_arg3) : S128.Idx → EReal) (ix1 h) := by
  have e1 : (blk3 m c t : Vec Ideal S1x128 .f32) (ix2 (0 : Fin 1) h) = (V m c main_v0 : S1x128.Idx → EReal) (ix2 (0 : Fin 1) h) := by
    unfold blk3 iblk
    rw [View.read_apply]
    show V m c main_v0 _ = _
    congr 1
    funext a
    apply Fin.ext
    match a with
    | ⟨0, _⟩ => show win0_3.index t 0 * 1 + 1 * 0 = 0; rw [show win0_3.index t 0 = 0 from rfl]
    | ⟨1, _⟩ => show win0_3.index t 1 * 128 + 1 * h.val = h.val; rw [show win0_3.index t 1 = 0 from rfl]; omega
  rw [e1, pA_V_v0]
  refine shapeCast_apply _ _ (ix2 (0 : Fin 1) h) (ix1 h) ?_
  rw [Shape.rowMajor_val_one, Shape.rowMajor_val_two]
  show h.val = 0 * 128 + h.val
  omega

/-- Window 5's block, at entry (0, d), is b2 at d. -/
theorem pA_blk5_read (c : Dev nD) (t : Fin cfg0.N) (d : Fin 64) :
    (blk5 m c t : Vec Ideal S1x64 .f32) (ix2 (0 : Fin 1) d) = (m ((c.tc : Thread nD τ).loc main_arg5) : S64.Idx → EReal) (ix1 d) := by
  have e1 : (blk5 m c t : Vec Ideal S1x64 .f32) (ix2 (0 : Fin 1) d) = (V m c main_v1 : S1x64.Idx → EReal) (ix2 (0 : Fin 1) d) := by
    unfold blk5 iblk
    rw [View.read_apply]
    show V m c main_v1 _ = _
    congr 1
    funext a
    apply Fin.ext
    match a with
    | ⟨0, _⟩ => show win0_5.index t 0 * 1 + 1 * 0 = 0; rw [show win0_5.index t 0 = 0 from rfl]
    | ⟨1, _⟩ => show win0_5.index t 1 * 64 + 1 * d.val = d.val; rw [show win0_5.index t 1 = 0 from rfl]; omega
  rw [e1, pA_V_v1]
  refine shapeCast_apply _ _ (ix2 (0 : Fin 1) d) (ix1 d) ?_
  rw [Shape.rowMajor_val_one, Shape.rowMajor_val_two]
  show d.val = 0 * 64 + d.val
  omega

end Cert.KernelIdeal.KValue

end
-- ==== Proof.KI.Arrays.lean ====
/- The scratch arrays and the result blocks of the proof data, entry by entry on the extended reals, are the specification's
   intermediate matrices of the argument arrays: each window's block at a point is the rows of its array the index map names,
   and each stored payload is the specification's formula of those rows. -/
import proofs.«138566_g10230612099342_week1_w1_691_6_alg».proof.Proof.KI.Data
import proofs.«138566_g10230612099342_week1_w1_691_6_alg».proof.Proof.Pay
import proofs.«138566_g10230612099342_week1_w1_691_6_alg».proof.Proof.Spec
import proofs.«138566_g10230612099342_week1_w1_691_6_alg».proof.Proof.KI.ArrBlocks
import proofs.«138566_g10230612099342_week1_w1_691_6_alg».proof.Proof.KI.ArrRows

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Body

variable (m : (ℓ : Loc nD τ sig) → Buf (Elt Ideal) ℓ)

/-- The argument arrays, as the specification's matrices. -/
abbrev aX (c : Dev nD) : Cert.Spec.Mat 10000 256 := m ((c.tc : Thread nD τ).loc main_arg0)
abbrev aAdj (c : Dev nD) : Cert.Spec.Mat 10000 10000 := m ((c.tc : Thread nD τ).loc main_arg1)
abbrev aW1 (c : Dev nD) : Cert.Spec.Mat 256 128 := m ((c.tc : Thread nD τ).loc main_arg2)
abbrev aB1 (c : Dev nD) : Cert.Spec.Row 128 := m ((c.tc : Thread nD τ).loc main_arg3)
abbrev aW2 (c : Dev nD) : Cert.Spec.Mat 128 64 := m ((c.tc : Thread nD τ).loc main_arg4)
abbrev aB2 (c : Dev nD) : Cert.Spec.Row 64 := m ((c.tc : Thread nD τ).loc main_arg5)

/-- The first scratch after point 0 is x · W1. -/
theorem XW_apply (c : Dev nD) (r : Fin 10000) (h : Fin 128) :
    XW m c (ix2 r h) = Cert.Spec.xw (aX m c) (aW1 m c) r h := by
  unfold XW
  rw [Pay.pay1_apply]
  unfold Cert.Spec.xw
  refine Finset.sum_congr rfl fun k _ => ?_
  rw [pA_blk0_read, pA_blk2_read]

/-- A second-phase store, read at local row p of a point whose adjacency block starts at row 200·b: the row 200·b + p of
    hid · W2. The block's row is the matrix's row, the first scratch is x · W1, the two small windows are b1 and W2. -/
theorem pA_hw_row (c : Dev nD) (t : Fin cfg0.N) (b : Nat) (hb : win0_1.index t 0 = b) (p : Fin 200) (r : Fin 10000)
    (hr : r.val = 200 * b + p.val) (d : Fin 64) :
    k0_pay2 (F := Ideal) (blk1 m c t) (XW m c) (blk3 m c t) (blk4 m c t) (ix2 p d)
      = Cert.Spec.hw (aX m c) (aAdj m c) (aW1 m c) (aB1 m c) (aW2 m c) r d := by
  rw [Pay.pay2_apply]
  unfold Cert.Spec.hw Cert.Spec.hid
  refine Finset.sum_congr rfl fun h _ => ?_
  have hs : (∑ k : Fin 10000, blk1 m c t (ix2 p k) * XW m c (ix2 k h))
      = ∑ k : Fin 10000, aAdj m c (ix2 r k) * Cert.Spec.xw (aX m c) (aW1 m c) k h :=
    Finset.sum_congr rfl fun k _ => by rw [pA_blk1_read m c t b hb (ix2 p k) (ix2 r k) hr rfl, XW_apply]
  rw [hs, pA_blk3_read, pA_blk4_read]

/-- The second scratch, once filled, is hid · W2. -/
theorem HW_apply (c : Dev nD) (r : Fin 10000) (d : Fin 64) :
    HW m c (ix2 r d) = Cert.Spec.hw (aX m c) (aAdj m c) (aW1 m c) (aB1 m c) (aW2 m c) r d := by
  have hlt : r.val / 200 < 50 := by have := r.isLt; omega
  unfold HW
  exact pA_hw_row m c (pt (r.val / 200 + 1) (by omega)) (r.val / 200) (pA_idx1_lo (r.val / 200) hlt)
    ⟨r.val % 200, Nat.mod_lt _ (by omega)⟩ r (by show r.val = 200 * (r.val / 200) + r.val % 200; omega) d

/-- A third-phase store, read at local row p of a point whose adjacency block starts at row 200·b: the row 200·b + p of the
    normalised embedding. The sum under the square root runs over the same row of adj · hw + b2. -/
theorem pA_z_row (c : Dev nD) (t : Fin cfg0.N) (b : Nat) (hb : win0_1.index t 0 = b) (p : Fin 200) (r : Fin 10000)
    (hr : r.val = 200 * b + p.val) (d : Fin 64) :
    k0_pay3 (F := Ideal) (blk1 m c t) (HW m c) (blk5 m c t) (ix2 p d)
      = Cert.Spec.z (aX m c) (aAdj m c) (aW1 m c) (aB1 m c) (aW2 m c) (aB2 m c) r d := by
  rw [Pay.pay3_apply]
  unfold Cert.Spec.z Cert.Spec.nrm
  have hpre : ∀ d' : Fin 64, (∑ k : Fin 10000, blk1 m c t (ix2 p k) * HW m c (ix2 k d')) + blk5 m c t (ix2 (0 : Fin 1) d')
      = Cert.Spec.pre (aX m c) (aAdj m c) (aW1 m c) (aB1 m c) (aW2 m c) (aB2 m c) r d' := fun d' => by
    unfold Cert.Spec.pre
    rw [pA_blk5_read]
    refine congrArg (· + (aB2 m c) (ix1 d')) (Finset.sum_congr rfl fun k _ => ?_)
    rw [pA_blk1_read m c t b hb (ix2 p k) (ix2 r k) hr rfl, HW_apply]
  rw [hpre d]
  refine congrArg (Ideal.div _) (congrArg (· + Cert.Spec.eps) (congrArg Ideal.sqrt (Finset.sum_congr rfl fun d' _ => ?_)))
  rw [hpre d']

/-- The third scratch, once filled, is the normalised embedding. -/
theorem Z_apply (c : Dev nD) (r : Fin 10000) (d : Fin 64) :
    Z m c (ix2 r d) = Cert.Spec.z (aX m c) (aAdj m c) (aW1 m c) (aB1 m c) (aW2 m c) (aB2 m c) r d := by
  have hlt : r.val / 200 < 50 := by have := r.isLt; omega
  unfold Z
  exact pA_z_row m c (pt (r.val / 200 + 51) (by omega)) (r.val / 200) (pA_idx1_hi (r.val / 200) hlt)
    ⟨r.val % 200, Nat.mod_lt _ (by omega)⟩ r (by show r.val = 200 * (r.val / 200) + r.val % 200; omega) d

/-- The 200 rows a point of the last phase loads from the third scratch are rows 200·(t − 101) … of it: the load's
    rectangle has unit stride and starts at the offset the point computes. -/
theorem pA_zRows_read (c : Dev nD) (t : Fin cfg0.N) (hc : k0_cond4 (grid0.coords t) = 1#1) (p : Fin 200) (d : Fin 64)
    (hlt : 200 * (t.val - 101) + p.val < 10000) :
    zRows m c t hc (ix2 p d) = Z m c (ix2 (⟨200 * (t.val - 101) + p.val, hlt⟩ : Fin 10000) d) := by
  unfold zRows
  show Z m c ((Rect.unit (s := S10000x64) (k0_off3 (grid0.coords t)) S200x64.size _).idx (ix2 p d)) = _
  refine congrArg (Z m c) (funext fun a => Fin.ext ?_)
  match a with
  | ⟨0, _⟩ =>
    show k0_off3 (grid0.coords t) 0 + 1 * p.val = 200 * (t.val - 101) + p.val
    rw [hoff3 t hc]
    show 200 * (t.val - 101) + 1 * p.val = 200 * (t.val - 101) + p.val
    omega
  | ⟨1, _⟩ =>
    show k0_off3 (grid0.coords t) 1 + 1 * d.val = d.val
    rw [hoff3 t hc]
    show 0 + 1 * d.val = d.val
    omega

/-- The block a point of the last phase stores: rows 200·(t − 101) … of the decoder's matrix. -/
theorem outBlk_apply (c : Dev nD) (t : Fin cfg0.N) (ht : 101 ≤ t.val) (p : Fin 200) (s : Fin 10000) :
    outBlk m c t (ix2 p s)
      = Cert.Spec.out (aX m c) (aAdj m c) (aW1 m c) (aB1 m c) (aW2 m c) (aB2 m c)
          ⟨200 * (t.val - 101) + p.val, by have := t.isLt; have hN : cfg0.N = 151 := N_0; omega⟩ s := by
  have hc : k0_cond4 (grid0.coords t) = 1#1 := (hcond4 t).mpr ht
  rw [outBlk_pos m c t hc, Pay.pay4_apply]
  unfold Cert.Spec.out
  refine congrArg Ideal.logistic (Finset.sum_congr rfl fun d _ => ?_)
  rw [pA_zRows_read m c t hc p d (by have := t.isLt; have hN : cfg0.N = 151 := N_0; omega), Z_apply, Z_apply]

end Cert.KernelIdeal.KValue

end
-- ==== Proof.KI.Final.lean ====
/- The result array after the run is the specification's matrix: the blocks written back at points 101..150 are its 200-row
   blocks, and they cover it. -/
import proofs.«138566_g10230612099342_week1_w1_691_6_alg».proof.Proof.KI.Arrays
import Idealize.ShloMosaic.Lib.Pipeline.Value

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Body

variable (m : (ℓ : Loc nD τ sig) → Buf (Elt Ideal) ℓ)

/-- The result window's block index at a point, axis by axis: block row t − 101 (0 before the last phase), block column 0. -/
theorem pV_index0 (t : Fin cfg0.N) : win0_6.index t (0 : Fin 2) = t.val - 101 := congrFun (idx6 t) 0
theorem pV_index1 (t : Fin cfg0.N) : win0_6.index t (1 : Fin 2) = 0 := congrFun (idx6 t) 1

/-- Where an element of the block at point t sits in the array: row 200·(t − 101) + p, the same column. -/
theorem pV_emb (t : Fin cfg0.N) (p : Fin 200) (s : Fin 10000) (h : 200 * (t.val - 101) + p.val < 10000) :
    ((cfg0.win 6).blk t).view.emb (ix2 p s) = ix2 (⟨200 * (t.val - 101) + p.val, h⟩ : Fin 10000) s := by
  funext a; apply Fin.ext
  match a with
  | ⟨0, _⟩ =>
    show win0_6.index t (0 : Fin 2) * 200 + 1 * p.val = 200 * (t.val - 101) + p.val
    rw [pV_index0]; omega
  | ⟨1, _⟩ =>
    show win0_6.index t (1 : Fin 2) * 10000 + 1 * s.val = s.val
    rw [pV_index1]; omega

/-- What a point of the last phase writes back is its block of the specification's matrix. -/
theorem pV_flushed_eq (c : Dev nD) (t : Fin cfg0.N) (ht : 101 ≤ t.val) :
    (dats (F := Ideal) m 0 c).flushed 6 t
      = ((cfg0.win 6).blk t).view.read (Elt Ideal)
          (Cert.Spec.outArr (aX m c) (aAdj m c) (aW1 m c) (aB1 m c) (aW2 m c) (aB2 m c)) := by
  show (cfg0.win 6).cut (grid0.coords t) ((dats m 0 c).after 6 t) = _
  rw [after6]
  funext y
  obtain ⟨p, s, rfl⟩ : ∃ (p : Fin 200) (s : Fin 10000), y = ix2 p s := ⟨y 0, y 1, eq_ix2 y⟩
  have hN : cfg0.N = 151 := N_0
  have hb : 200 * (t.val - 101) + p.val < 10000 := by have := t.isLt; omega
  show outBlk m c t (ix2 p s) = Cert.Spec.outArr (aX m c) (aAdj m c) (aW1 m c) (aB1 m c) (aW2 m c) (aB2 m c)
      (((cfg0.win 6).blk t).view.emb (ix2 p s))
  rw [outBlk_apply m c t ht p s, pV_emb t p s hb, Cert.Spec.outArr_ix2]

/-- An index of the array is in point t's block iff each coordinate is in the block's range on its axis. -/
theorem pV_mem_blk (t : Fin cfg0.N) (i : S10000x10000.Idx) :
    i ∈ ((cfg0.win 6).blk t).view.set ↔ ∀ a : Fin 2, win0_6.index t a * S200x10000.size a ≤ (i a).val
      ∧ (i a).val < win0_6.index t a * S200x10000.size a + S200x10000.size a := by
  show i ∈ ((View.whole main_v2).slice (win0_6.rect t)).set ↔ _
  rw [View.set_slice_whole, Rect.mem_set_unit]
  exact Iff.rfl

/-- Every index of the array lies in the block of a point that writes back: row r is in the block of point r / 200 + 101. -/
theorem pV_cover (i : S10000x10000.Idx) :
    ∃ t : Fin cfg0.N, (cfg0.win 6).flush t = true ∧ i ∈ ((cfg0.win 6).blk t).view.set := by
  have hi0 : (i 0).val < 10000 := idx2_lt0 i
  have hi1 : (i 1).val < 10000 := idx2_lt1 i
  have hN : cfg0.N = 151 := N_0
  have hlt : (i 0).val / 200 + 101 < cfg0.N := by omega
  refine ⟨⟨(i 0).val / 200 + 101, hlt⟩, flush6 _ ((hcond4 _).mpr (by show 101 ≤ (i 0).val / 200 + 101; omega)), ?_⟩
  rw [pV_mem_blk]
  intro a
  match a with
  | ⟨0, _⟩ =>
    show win0_6.index ⟨(i 0).val / 200 + 101, hlt⟩ (0 : Fin 2) * 200 ≤ (i 0).val
      ∧ (i 0).val < win0_6.index ⟨(i 0).val / 200 + 101, hlt⟩ (0 : Fin 2) * 200 + 200
    rw [pV_index0]
    show ((i 0).val / 200 + 101 - 101) * 200 ≤ (i 0).val ∧ (i 0).val < ((i 0).val / 200 + 101 - 101) * 200 + 200
    omega
  | ⟨1, _⟩ =>
    show win0_6.index ⟨(i 0).val / 200 + 101, hlt⟩ (1 : Fin 2) * 10000 ≤ (i 1).val
      ∧ (i 1).val < win0_6.index ⟨(i 0).val / 200 + 101, hlt⟩ (1 : Fin 2) * 10000 + 10000
    rw [pV_index1]
    omega

/-- The result window's array after the last point. -/
theorem final (c : Dev nD) :
    (dats (F := Ideal) m 0 c).arrAt 6 cfg0.N
      = Cert.Spec.outArr (aX m c) (aAdj m c) (aW1 m c) (aB1 m c) (aW2 m c) (aB2 m c) :=
  (dats (F := Ideal) m 0 c).arrAt_eq_of_cover 6
    (Cert.Spec.outArr (aX m c) (aAdj m c) (aW1 m c) (aB1 m c) (aW2 m c) (aB2 m c))
    (fun t hf => pV_flushed_eq m c t ((hcond4 t).mp (by
      by_contra hn
      rw [noFlush6 t hn] at hf
      exact Bool.false_ne_true hf)))
    pV_cover

end Cert.KernelIdeal.KValue

end
-- ==== Proof.KI.KRun.lean ====
/- The idealized kernel's run, with its result array named: the specification's matrix of the argument arrays. -/
import proofs.«138566_g10230612099342_week1_w1_691_6_alg».proof.Proof.KI.Oblig
import proofs.«138566_g10230612099342_week1_w1_691_6_alg».proof.Proof.KI.Final

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Body

variable (m : (ℓ : Loc nD τ sig) → Buf (Elt Ideal) ℓ)

/-- Every weakly fair execution of the idealized kernel from memory m ends with the result array equal to the specification's
    function of the argument arrays, and the argument arrays unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
        = Cert.Spec.outArr (aX m c) (aAdj m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.KValue

end
-- ==== Proof.RefValue.lean ====
/- The reference program's result, entry by entry, is the specification's function of its arguments.
   The run's term is read one mathematical stage at a time, from the inside out, at explicit coordinates:
   x · W1, the hidden layer, hid · W2, the second layer, a row's length, the normalised embedding, the inner product
   of two rows, and its logistic. Each stage is the previous one under a finite sum or a pointwise operation, so each
   lemma only identifies the coordinates at which the operands are read and rewrites with the stage before it. -/
import proofs.«138566_g10230612099342_week1_w1_691_6_alg».proof.Proof.Gen.ReferenceIdeal.Run
import proofs.«138566_g10230612099342_week1_w1_691_6_alg».proof.Proof.Gen.ReferenceIdeal.Read
import proofs.«138566_g10230612099342_week1_w1_691_6_alg».proof.Proof.Spec
import Idealize.ShloMosaic.PureOps.Ideal.Laws
import Idealize.ShloMosaic.Lib.ValueIdx

noncomputable section

open scoped BigOperators

namespace Cert.ReferenceIdeal.RefValue

open Idealize.ShloMosaic Idealize.ShloMosaic.TcCoe Idealize.SL.Sem Idealize.ShloMosaic.ValueIdx Cert.ReferenceIdeal

section Stages

variable (x0 : (⟨S10000x256, .f32⟩ : BufTy).Contents (Elt Ideal)) (x1 : (⟨S10000x10000, .f32⟩ : BufTy).Contents (Elt Ideal))
  (x2 : (⟨S256x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- x · W1 at (r, h). -/
theorem pR_xw (r : Fin 10000) (h : Fin 128) :
    Read.val_main_v0 (F := Ideal) x0 x2 (ix2 r h) = Cert.Spec.xw x0 x2 r h := by
  rw [Read.val_main_v0_apply]
  unfold Cert.Spec.xw
  refine Finset.sum_congr rfl fun k _ => ?_
  have e1 : Read.lidx_main_v0 (ix2 r h) k = ix2 r k :=
    funext fun a => Fin.ext (by match a with | ⟨0, _⟩ => rfl | ⟨1, _⟩ => rfl)
  have e2 : Read.ridx_main_v0 (ix2 r h) k = ix2 k h :=
    funext fun a => Fin.ext (by match a with | ⟨0, _⟩ => rfl | ⟨1, _⟩ => rfl)
  rw [e1, e2]

/-- The hidden layer at (r, h). -/
theorem pR_hid (r : Fin 10000) (h : Fin 128) :
    Read.val_main_v5 (F := Ideal) x0 x1 x2 x3 (ix2 r h) = Cert.Spec.hid x0 x1 x2 x3 r h := by
  rw [Read.val_main_v5_apply, Read.val_main_v4_apply, Read.val_main_v1_apply, Read.val_main_v3_apply,
    Read.val_main_v2_apply, Read.val_main_call0_v0_apply, Read.val_main_call0_cst_apply]
  unfold Cert.Spec.hid
  have hs : (∑ k : Fin 10000, x1 (Read.lidx_main_v1 (ix2 r h) k)
        * Read.val_main_v0 (F := Ideal) x0 x2 (Read.ridx_main_v1 (ix2 r h) k))
      = ∑ k : Fin 10000, x1 (ix2 r k) * Cert.Spec.xw x0 x2 k h :=
    Finset.sum_congr rfl fun k _ => by
      have e1 : Read.lidx_main_v1 (ix2 r h) k = ix2 r k :=
        funext fun a => Fin.ext (by match a with | ⟨0, _⟩ => rfl | ⟨1, _⟩ => rfl)
      have e2 : Read.ridx_main_v1 (ix2 r h) k = ix2 k h :=
        funext fun a => Fin.ext (by match a with | ⟨0, _⟩ => rfl | ⟨1, _⟩ => rfl)
      rw [e1, e2, pR_xw]
  have hb : Read.idx_main_v2 (Read.idx_main_v3 (ix2 r h)) = ix1 h :=
    funext fun a => Fin.ext (by match a with | ⟨0, _⟩ => rfl)
  rw [hs, hb, Ideal.maximumf_def, Ideal.addf_def, Ideal.ofBits_def, Ideal.ofBits_zero_f32]

/-- hid · W2 at (r, d). -/
theorem pR_hw (r : Fin 10000) (d : Fin 64) :
    Read.val_main_v6 (F := Ideal) x0 x1 x2 x3 x4 (ix2 r d) = Cert.Spec.hw x0 x1 x2 x3 x4 r d := by
  rw [Read.val_main_v6_apply]
  unfold Cert.Spec.hw
  refine Finset.sum_congr rfl fun k _ => ?_
  have e1 : Read.lidx_main_v6 (ix2 r d) k = ix2 r k := funext fun a => Fin.ext (by match a with | ⟨0, _⟩ => rfl | ⟨1, _⟩ => rfl)
  have e2 : Read.ridx_main_v6 (ix2 r d) k = ix2 k d := funext fun a => Fin.ext (by match a with | ⟨0, _⟩ => rfl | ⟨1, _⟩ => rfl)
  rw [e1, e2, pR_hid]

/-- The second layer before normalisation at (r, d). -/
theorem pR_pre (r : Fin 10000) (d : Fin 64) :
    Read.val_main_v10 (F := Ideal) x0 x1 x2 x3 x4 x5 (ix2 r d) = Cert.Spec.pre x0 x1 x2 x3 x4 x5 r d := by
  rw [Read.val_main_v10_apply, Read.val_main_v7_apply, Read.val_main_v9_apply, Read.val_main_v8_apply]
  unfold Cert.Spec.pre
  have hs : (∑ k : Fin 10000, x1 (Read.lidx_main_v7 (ix2 r d) k)
        * Read.val_main_v6 (F := Ideal) x0 x1 x2 x3 x4 (Read.ridx_main_v7 (ix2 r d) k))
      = ∑ k : Fin 10000, x1 (ix2 r k) * Cert.Spec.hw x0 x1 x2 x3 x4 k d :=
    Finset.sum_congr rfl fun k _ => by
      have e1 : Read.lidx_main_v7 (ix2 r d) k = ix2 r k := funext fun a => Fin.ext (by match a with | ⟨0, _⟩ => rfl | ⟨1, _⟩ => rfl)
      have e2 : Read.ridx_main_v7 (ix2 r d) k = ix2 k d := funext fun a => Fin.ext (by match a with | ⟨0, _⟩ => rfl | ⟨1, _⟩ => rfl)
      rw [e1, e2, pR_hw]
  have hb : Read.idx_main_v8 (Read.idx_main_v9 (ix2 r d)) = ix1 d := funext fun a => Fin.ext (by match a with | ⟨0, _⟩ => rfl)
  rw [hs, hb, Ideal.addf_def]

/-- A row's Euclidean length, read in the one-column array at (r, 0). -/
theorem pR_nrm (r : Fin 10000) :
    Read.val_main_v11 (F := Ideal) x0 x1 x2 x3 x4 x5 (ix2 r (0 : Fin 1)) = Cert.Spec.nrm x0 x1 x2 x3 x4 x5 r := by
  rw [Read.val_main_v11_apply, Read.val_main_call1_v2_apply, Read.val_main_call1_v1_apply, Read.val_main_call1_cst_apply]
  unfold Cert.Spec.nrm
  have hs : (∑ k : Fin 64, Read.val_main_call1_v0 (F := Ideal) x0 x1 x2 x3 x4 x5
        (Read.idx_main_call1_v1 (Read.idx_main_call1_v2 (ix2 r (0 : Fin 1))) k))
      = ∑ d : Fin 64, Cert.Spec.pre x0 x1 x2 x3 x4 x5 r d * Cert.Spec.pre x0 x1 x2 x3 x4 x5 r d :=
    Finset.sum_congr rfl fun k _ => by
      have e1 : Read.idx_main_call1_v1 (Read.idx_main_call1_v2 (ix2 r (0 : Fin 1))) k = ix2 r k := funext fun a => Fin.ext (by match a with | ⟨0, _⟩ => rfl | ⟨1, _⟩ => rfl)
      rw [e1, Read.val_main_call1_v0_apply, pR_pre, Ideal.mulf_def]
  rw [hs, Ideal.hostUnary_sqrt_def, Ideal.ofBits_def, Ideal.ofBits_zero_f32, zero_add]

/-- The normalised embedding at (r, d). -/
theorem pR_z (r : Fin 10000) (d : Fin 64) :
    Read.val_main_v15 (F := Ideal) x0 x1 x2 x3 x4 x5 (ix2 r d) = Cert.Spec.z x0 x1 x2 x3 x4 x5 r d := by
  rw [Read.val_main_v15_apply, Read.val_main_v14_apply, Read.val_main_v13_apply, Read.val_main_v12_apply,
    Read.val_main_cst_apply]
  unfold Cert.Spec.z Cert.Spec.eps
  have e1 : Read.idx_main_v14 (ix2 r d) = ix2 r (0 : Fin 1) := funext fun a => Fin.ext (by match a with | ⟨0, _⟩ => rfl | ⟨1, _⟩ => rfl)
  rw [e1, pR_pre, pR_nrm, Ideal.hostDivf_def, Ideal.addf_def, Ideal.ofBits_def]

/-- The inner product of two rows of the embedding, through the transposed copy, at (r, s). -/
theorem pR_gram (r s : Fin 10000) :
    Read.val_main_v17 (F := Ideal) x0 x1 x2 x3 x4 x5 (ix2 r s)
      = ∑ d : Fin 64, Cert.Spec.z x0 x1 x2 x3 x4 x5 r d * Cert.Spec.z x0 x1 x2 x3 x4 x5 s d := by
  rw [Read.val_main_v17_apply]
  refine Finset.sum_congr rfl fun k _ => ?_
  have e1 : Read.lidx_main_v17 (ix2 r s) k = ix2 r k := funext fun a => Fin.ext (by match a with | ⟨0, _⟩ => rfl | ⟨1, _⟩ => rfl)
  have e2 : Read.idx_main_v16 (Read.ridx_main_v17 (ix2 r s) k) = ix2 s k := funext fun a => Fin.ext (by match a with | ⟨0, _⟩ => rfl | ⟨1, _⟩ => rfl)
  rw [Read.val_main_v16_apply, e1, e2, pR_z, pR_z]

/-- The single-precision pattern of one is the number one. -/
theorem pR_one : Ideal.ofBits .f32 0x3F800000#32 = 1 := by
  simp [Ideal.ofBits, Ideal.ieee, -EReal.coe_mul]; norm_num

/-- The decoder at (r, s): 1 / (1 + exp (−t)) is the logistic function of t. -/
theorem pR_out (r s : Fin 10000) :
    Read.val_main_v23 (F := Ideal) x0 x1 x2 x3 x4 x5 (ix2 r s) = Cert.Spec.out x0 x1 x2 x3 x4 x5 r s := by
  rw [Read.val_main_v23_apply, Read.val_main_v22_apply, Read.val_main_cst_1_apply, Read.val_main_v21_apply,
    Read.val_main_v20_apply, Read.val_main_cst_0_apply, Read.val_main_v19_apply, Read.val_main_v18_apply, pR_gram]
  unfold Cert.Spec.out Ideal.logistic
  rw [Ideal.hostDivf_def, Ideal.addf_def, Ideal.hostUnary_exp_def, Ideal.hostNegf_def, Ideal.negf_def,
    Ideal.ofBits_def, pR_one]

/-- The reference's last stage is the specification's array. -/
theorem pR_val_eq :
    Read.val_main_v23 (F := Ideal) x0 x1 x2 x3 x4 x5 = Cert.Spec.outArr x0 x1 x2 x3 x4 x5 := by
  funext j
  obtain ⟨r, s, rfl⟩ : ∃ (r : Fin 10000) (s : Fin 10000), j = ix2 r s := ⟨j 0, j 1, eq_ix2 j⟩
  rw [Cert.Spec.outArr_ix2]
  exact pR_out x0 x1 x2 x3 x4 x5 r s

end Stages

/-- Every weakly fair execution of the reference from memory m ends with its result array equal to the specification's
    function of the argument arrays, and the argument arrays unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23)
        = Cert.Spec.outArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run (defs (F := Ideal)) _ _).mono (fun _ h c => ⟨(h c).1.trans ?_, (h c).2⟩)
    (Cert.ReferenceIdeal.Value.run (F := Ideal) m ρ)
  rw [Read.val_main_v23_eq]
  exact pR_val_eq _ _ _ _ _ _

end Cert.ReferenceIdeal.RefValue

end
-- ==== Proof.lean ====
/- The certificate's five claims.
   Both programs compute, entry by entry on the extended reals, the decoder logistic (z · zᵀ) of the row-normalised two-layer
   graph convolution z of the arguments (Proof/Spec.lean). The kernel does it in one pipeline of 151 grid points that carries
   x·W1, then hid·W2, then z in scratch buffers across points, 200 rows at a time, and writes the result in 200-row blocks;
   the reference in 33 host operations. The kernel's frames are proved over the pipeline library's frame run with an invariant
   that names what the scratch buffers hold after each point (Proof/KI, and its word-level twin Proof/K); its value is read off
   that run's post: the blocks written back at points 101..150 are the specification's blocks and they cover the array
   (Proof/KI/Arrays.lean, Proof/KI/Final.lean). The reference's value is its generated run read one operation at a time
   (Proof/RefValue.lean). Every matrix product on either side is the same finite sum over the contracted coordinate, and a kernel
   logistic is by definition 1 / (1 + e⁻ˣ): the two results are one function, with no use of the inputs' finiteness.
   The idealization rewrote no operation, so the preservation claim is trivial. -/
import proofs.«138566_g10230612099342_week1_w1_691_6_alg».proof.Defs
import proofs.«138566_g10230612099342_week1_w1_691_6_alg».proof.Proof.Gen.Kernel
import proofs.«138566_g10230612099342_week1_w1_691_6_alg».proof.Proof.Gen.KernelIdeal
import proofs.«138566_g10230612099342_week1_w1_691_6_alg».proof.Proof.Gen.ReferenceIdeal
import proofs.«138566_g10230612099342_week1_w1_691_6_alg».proof.Proof.Gen.ReferenceIdeal.Run
import proofs.«138566_g10230612099342_week1_w1_691_6_alg».proof.Proof.Gen.Pre_finite_inputs
import proofs.«138566_g10230612099342_week1_w1_691_6_alg».proof.Proof.K.Oblig
import proofs.«138566_g10230612099342_week1_w1_691_6_alg».proof.Proof.KI.KRun
import proofs.«138566_g10230612099342_week1_w1_691_6_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the specification's matrix of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
